-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S2x1x1 : Shape := ⟨3, ![2, 1, 1]⟩
abbrev S2048x1024 : Shape := ⟨2, ![2048, 1024]⟩
abbrev S1x1x1 : Shape := ⟨3, ![1, 1, 1]⟩
abbrev S1x2048x1024 : Shape := ⟨3, ![1, 2048, 1024]⟩
abbrev S1 : Shape := ⟨1, ![1]⟩
abbrev S_ : Shape := ⟨0, ![]⟩
abbrev S1x1 : Shape := ⟨2, ![1, 1]⟩
abbrev S1024x1 : Shape := ⟨2, ![1024, 1]⟩
abbrev S1x1024 : Shape := ⟨2, ![1, 1024]⟩

abbrev nBuf : Space → Nat
  | .hbm => 39
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S1024x1024, .f32⟩
  | .hbm, ⟨12, _⟩ => ⟨S_, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .bf16⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S1x1x1, .f32⟩
  | .local _ .vmem, ⟨3, _⟩ => ⟨S1x1x1, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_cst_6 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_1 : BitVec 32 := 0#32
  let v9 : BitVec 1 := Scalar.cmpi .ne v8 c0_i32_1
  v9

def k0_cond2 (i : grid0.Coords) : BitVec 1 :=
  let arg1 : BitVec 32 := BitVec.ofNat 32 (i 1).val
  let c0_i32_2 : BitVec 32 := 0#32
  let v10 : BitVec 1 := Scalar.cmpi .sgt arg1 c0_i32_2
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S1x2048x1024 : S2048x1024.ShapeCasts S1x2048x1024
  reduces_S1x2048x1024_S1 : S1x2048x1024.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  reducesTo_S2x1x1_S_d0_1_2 : S2x1x1.ReducesTo [0, 1, 2] S_
  h_S_ : 0 < S_.numel
  shapeCasts_S_S1x1 : S_.ShapeCasts S1x1
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  bcast_S1x1_S1x1024_0_1 : S1x1.BroadcastsInDim S1x1024 (![0, 1] : Fin 2 → Fin S1x1024.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  broadcasts_S1x1_S1024x1024 : S1x1.Broadcasts S1024x1024
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S32768x1024.size a
  hwx1_5 : ∀ i : grid1.Coords, EltTy.bits .f32 = 32 ∨ (Rect.block (s := S32768x1024) S1024x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S32768x1024, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_cst_8 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]

class Facts₀ : Prop where
  reducesTo_S32768x1024_S_d0_1 : S32768x1024.ReducesTo [0, 1] S_
  h_S_ : 0 < S_.numel
  bcast_S_S32768x1024 : S_.BroadcastsInDim S32768x1024 (![] : Fin 0 → Fin S32768x1024.rank)
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.KBody0.lean ====
import proofs.«101461_j30777735643613_2_alg».proof.Proof.Gen.Kernel.Launch
import proofs.«101461_j30777735643613_2_alg».proof.Proof.Gen.Kernel.Skeleton
import proofs.«101461_j30777735643613_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the first region at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one-element rectangle the body stores the running maximum through. -/
abbrev r0_out : Rect S1x1x1 := Rect.unit (s := S1x1x1) ![0, 0, 0] S1x1x1.size inb_S1x1x1_S1x1x1_0_0_0

/-- The running maximum: what the one-element output buffer holds after the body at position `n` of the grid.
    At the first of a core's eight row blocks it is the block's own maximum of absolute values; at a later one it is
    the larger of what the point before left and the block's own maximum. -/
def acc0 (c : Dev nD) : (n : ℕ) → n < cfg0.N → Vec F S1x1x1 .f32
  | 0, hn => View.canon [⟨r0_out, k0_pay1 (iblk0 V c 0 ⟨0, hn⟩)⟩]
  | n + 1, hn =>
    if (n + 1) % 8 = 0 then View.canon [⟨r0_out, k0_pay1 (iblk0 V c 0 ⟨n + 1, hn⟩)⟩]
    else View.canon [⟨r0_out, k0_pay2 (iblk0 V c 0 ⟨n + 1, hn⟩) (acc0 c n (Nat.lt_of_succ_lt hn))⟩]

/-! ## A load through the whole of a shape -/

/-- A load through the unit-stride rectangle that starts at the origin and has the shape's own sizes reads the
    contents themselves: index `x` is placed at `0 + 1 * x`. -/
theorem ld_full {Val : EltTy → Type} {S : Shape} {e : EltTy} (X : S.Idx → Val e) (off : Fin S.rank → ℕ)
    (inb : ∀ a, off a + S.size a ≤ S.size a) (h0 : ∀ a, off a = 0) :
    View.ld X (Rect.unit (s := S) off S.size inb) = X := by
  funext x
  show X ((Rect.unit (s := S) off S.size inb).idx x) = X x
  congr 1
  funext a
  apply Fin.ext
  show off a + 1 * (x a : ℕ) = x a
  rw [h0 a]; omega

/-- The rectangle the body loads its input block through: the whole block. -/
abbrev r0_in : Rect S2048x1024 := Rect.unit (s := S2048x1024) ![0, 0] S2048x1024.size inb_S2048x1024_S2048x1024_0_0

/-- What the whole-block load reads of a buffer: the buffer's contents. -/
theorem readAt_in (v : View sig .tc .vmem S2048x1024 .f32) (f : v.ty.Contents (Elt F)) :
    View.readAt (Elt F) v r0_in.toLoadRect f = v.read (Elt F) f :=
  (View.readAt_eq_ld v f r0_in).trans (ld_full _ _ _ (by decide))

/-- What the load of the one-element buffer reads: its contents. -/
theorem readAt_out (v : View sig .tc .vmem S1x1x1 .f32) (f : v.ty.Contents (Elt F)) :
    View.readAt (Elt F) v r0_out.toLoadRect f = v.read (Elt F) f :=
  (View.readAt_eq_ld v f r0_out).trans (ld_full _ _ _ (by decide))

/-! ## The schedule of the body's two conditionals -/

/-- The output window is stored at every point (one of the two conditions holds at each). -/
theorem live0_1 : ∀ i : cfg0.grid.Coords, cfg0.idle 1 i = false :=
  (by decide +kernel : ∀ i : grid0.Coords, idle0 1 i = false)

/-- The first conditional (`i1 = 0`) is taken at the first of a core's eight row blocks only, -/
theorem hcond0_1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- and the second (`i1 > 0`) at the seven others. -/
theorem hcond0_2 : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-! ## The body's triple, case by case -/

/-- The single store through the one-element rectangle covers the one-element buffer. -/
theorem cover0 (p : Vec F S1x1x1 .f32) (y : S1x1x1.Idx) :
    ∃ pc ∈ ([⟨r0_out, p⟩] : List (View.Piece (Elt F) S1x1x1 .f32)), y ∈ pc.1.set :=
  View.cover_of_tiled [⟨r0_out, p⟩] S1x1x1.size (by rfl) y

set_option maxHeartbeats 1000000 in
/-- At the first of a core's row blocks (first condition true, second false): on whole staging memrefs, the input's at
    `x0` and the output's at anything, the body runs to the continuation holding the input's as it was and the output's
    at the block's maximum of absolute values. -/
theorem sound_kernel0_A (c : Dev nD) (E : Set ℕ) (i : grid0.Coords)
    (arg2 : Memref sig .tc .vmem S2048x1024 .f32) (harg2 : arg2.IsWhole) (arg3 : Memref sig .tc .vmem S1x1x1 .f32) (harg3 : arg3.IsWhole)
    (h1 : k0_cond1 i = 1#1) (h2 : ¬k0_cond2 i = 1#1)
    (x0 : Vec F S2048x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (View.canon [⟨r0_out, k0_pay1 x0⟩])) -∗ K ⟨⟩))
      ⊢ wp frame (wpE (defs₀ (F := F)) Variants.none c none) E (cc0__amax_kernel i arg2 harg2 arg3 harg3) K := by
  simp only [cc0__amax_kernel_eq_skeleton]; unfold cc0__amax_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  refine (View.read_writes_eq_canon _ _ _ (cover0 _)).trans ?_
  rw [readAt_in]

set_option maxHeartbeats 1000000 in
/-- At a later row block (first condition false, second true): the output's staging memref holding the carried value
    `xo`, the body leaves there the larger of `xo` and the block's maximum of absolute values. -/
theorem sound_kernel0_B (c : Dev nD) (E : Set ℕ) (i : grid0.Coords)
    (arg2 : Memref sig .tc .vmem S2048x1024 .f32) (harg2 : arg2.IsWhole) (arg3 : Memref sig .tc .vmem S1x1x1 .f32) (harg3 : arg3.IsWhole)
    (h1 : ¬k0_cond1 i = 1#1) (h2 : k0_cond2 i = 1#1)
    (x0 : Vec F S2048x1024 .f32) (xo : Vec F S1x1x1 .f32) (K : PUnit → sProp 𝕄) :
    iprop(owns (c : Thread nD τ) arg2 fullShare x0 ∗ owns (c : Thread nD τ) arg3 fullShare xo
        ∗ (iprop(owns (c : Thread nD τ) arg2 fullShare x0 ∗ owns (c : Thread nD τ) arg3 fullShare (View.canon [⟨r0_out, k0_pay2 x0 xo⟩])) -∗ K ⟨⟩))
      ⊢ wp frame (wpE (defs₀ (F := F)) Variants.none c none) E (cc0__amax_kernel i arg2 harg2 arg3 harg3) K := by
  simp only [cc0__amax_kernel_eq_skeleton]; unfold cc0__amax_kernel_skel
  unfold owns
  iintro ⟨⟨%f0, %hf0, H0⟩, ⟨%f1, %hf1, H1⟩, Hk⟩
  subst hf0; subst hf1
  sl_exec (disch := first | exact h1 | exact h2)
  sl_step
  iapply Hk
  isplitl [H0]
  · iexists f0; isplitr; · ipureintro; rfl
    iexact H0
  iexists _; isplitr
  swap; · iexact H1
  ipureintro
  refine (View.read_writes_eq_canon _ _ _ (cover0 _)).trans ?_
  rw [readAt_in, readAt_out]

/-! ## The running maximum in closed form -/

/-- At the first of a core's row blocks the running maximum is the block's own. -/
theorem acc0_A (c : Dev nD) (t : Fin cfg0.N) (h0 : t.val % 8 = 0) :
    acc0 V c t.val t.isLt = View.canon [⟨r0_out, k0_pay1 (iblk0 V c 0 t)⟩] := by
  obtain ⟨n, hn⟩ := t
  cases n with
  | zero => rfl
  | succ n => exact (if_pos h0).trans rfl

/-- At a later one it is the larger of what the point before left and the block's own. -/
theorem acc0_B (c : Dev nD) (t : Fin cfg0.N) (h0 : ¬t.val % 8 = 0) :
    acc0 V c t.val t.isLt = View.canon [⟨r0_out, k0_pay2 (iblk0 V c 0 t)
      (acc0 V c (t.val - 1) (Nat.lt_of_le_of_lt (Nat.sub_le _ _) t.isLt))⟩] := by
  obtain ⟨n, hn⟩ := t
  cases n with
  | zero => exact absurd (Nat.zero_mod _) h0
  | succ n => exact (if_neg h0).trans rfl

/-- The proof data of the first region on core `c`: arrays as found; the input buffer at its block, the output
    buffer at the running maximum; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = acc0 V c t.val t.isLt := by
  dsimp only [dat0]

theorem after0_0 (c : Dev nD) (t : Fin cfg0.N) : (dat0 V c).after 0 t = iblk0 V c 0 t := by
  dsimp only [dat0]

/-- The input window is fetched at every point, so its current staging buffer holds the point's block. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)

/-- At a point that is not the first of a core's eight, the output's current staging buffer still holds what the body
    left at the point before: the point is not the first of the grid, the buffer was not written back in between (that
    happens after a core's last row block only), and the window is stored at every point and is uncut. -/
theorem before0_1_B (c : Dev nD) (t : Fin cfg0.N) (h0 : ¬t.val % 8 = 0) (d) :
    (dat0 V c).before 1 t d = acc0 V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dat0]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the input's memref holds its block; the closed forms of the two conditions say which case the
    point is in; in the second the output's memref holds what the point before left; so the case's triple applies. The
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 8 = 0
  · rw [acc0_A V c t h0]
    iintro ⟨HΦ, Ho, ⟨%d0, H0⟩, ⟨%d1, H1⟩⟩
    iapply (sound_kernel0_A c Set.univ (grid0.coords t) _ _ _ _ ((hcond0_1 t).mpr h0)
      (fun h => (hcond0_2 t).mp h h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [acc0_B V c t h0]
    simp only [before0_1_B V c t h0]
    iintro ⟨HΦ, Ho, ⟨%d0, H0⟩, ⟨%d1, H1⟩⟩
    iapply (sound_kernel0_B c Set.univ (grid0.coords t) _ _ _ _ (fun h => h0 ((hcond0_1 t).mp h))
      ((hcond0_2 t).mpr h0) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The body obligation of the first region at every grid point. -/
theorem body_obligation0 (c : Dev nD) : BodyObligation (dat0 (F := F) V c) (defs₀ (F := F)) Variants.none () Set.univ := fun t => by
  rw [bigSep_W0, bigSep_W0]
  rw [show cfg0.idle (1 : Fin 2) (cfg0.grid.coords t) = false from live0_1 _]
  exact sound_body0 V c t

end Cert.Kernel.Hand

end
-- ==== Proof.KBody1.lean ====
import proofs.«101461_j30777735643613_2_alg».proof.Proof.Gen.Kernel.Launch
import proofs.«101461_j30777735643613_2_alg».proof.Proof.Gen.Kernel.Skeleton
import proofs.«101461_j30777735643613_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the second region at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024×1024 rectangle the body stores its result through. -/
abbrev r1_out : Rect S1024x1024 := Rect.unit (s := S1024x1024) ![0, 0] S1024x1024.size inb_S1024x1024_S1024x1024_0_0

/-- What the body leaves in the output block: its one store of the payload of the five loaded blocks
    (row block of x, the transposed quantized weight, the input scale, the scale product row, the bias row). -/
def out1_5 (x0 : Vec F S1024x1024 .f32) (x1 : Vec F S1024x1024 .bf16) (x2 : Vec F S1x1 .f32) (x3 x4 : Vec F S1x1024 .f32) :
    Vec F S1024x1024 .f32 :=
  View.canon [⟨r1_out, k1_pay1 x2 x0 x1 x3 x4⟩]

/-- The proof data of the second region on core `c`: arrays as found; each input buffer at its block, the output
    buffer at the payload of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What the body finds in its five input buffers -/

/-- Input window 0's current staging buffer holds its block at every grid point, whether or not the pipeline
    fetched it there: where it is not fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, whether or not the pipeline
    fetched it there: where it is not fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, whether or not the pipeline
    fetched it there: where it is not fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, whether or not the pipeline
    fetched it there: where it is not fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every grid point, whether or not the pipeline
    fetched it there: where it is not fetched its block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's loads and its one store go through whole rectangles -/

theorem zero2 : (![0, 0] : Fin 2 → Nat) = fun _ => 0 := funext fun a => by fin_cases a <;> rfl

/-- A load through the whole rectangle of a 1024×1024 buffer reads the buffer's contents, -/
theorem readAt_S1024x1024 {κ : Kind} {sp : Space} {e : EltTy} (v : View sig κ sp S1024x1024 e) (f : v.ty.Contents (Elt F)) :
    v.readAt (Elt F) (Rect.unit (s := S1024x1024) ![0, 0] S1024x1024.size inb_S1024x1024_S1024x1024_0_0).toLoadRect f = v.read (Elt F) f :=
  View.ld_unit_zero (S := S1024x1024) zero2 inb_S1024x1024_S1024x1024_0_0 (v.read (Elt F) f)

/-- likewise of a 1×1024 row -/
theorem readAt_S1x1024 {κ : Kind} {sp : Space} {e : EltTy} (v : View sig κ sp S1x1024 e) (f : v.ty.Contents (Elt F)) :
    v.readAt (Elt F) (Rect.unit (s := S1x1024) ![0, 0] S1x1024.size inb_S1x1024_S1x1024_0_0).toLoadRect f = v.read (Elt F) f :=
  View.ld_unit_zero (S := S1x1024) zero2 inb_S1x1024_S1x1024_0_0 (v.read (Elt F) f)

/-- and of the one-element buffer. -/
theorem readAt_S1x1 {κ : Kind} {sp : Space} {e : EltTy} (v : View sig κ sp S1x1 e) (f : v.ty.Contents (Elt F)) :
    v.readAt (Elt F) (Rect.unit (s := S1x1) ![0, 0] S1x1.size inb_S1x1_S1x1_0_0).toLoadRect f = v.read (Elt F) f :=
  View.ld_unit_zero (S := S1x1) zero2 inb_S1x1_S1x1_0_0 (v.read (Elt F) f)

/-- The one store covers the output buffer. -/
theorem cover1_5 (p0 : Vec F S1024x1024 .f32) (y : S1024x1024.Idx) :
    ∃ pc ∈ ([⟨r1_out, p0⟩] : List (View.Piece (Elt F) S1024x1024 .f32)), y ∈ pc.1.set :=
  ⟨_, List.mem_singleton_self _, View.mem_set_unit_zero (S := S1024x1024) zero2 inb_S1024x1024_S1024x1024_0_0 y⟩

/-! ## The body's triple -/

set_option maxHeartbeats 1000000 in
/-- The body on whole staging memrefs — the five inputs' at read contents `x0 … x4`, the output's at anything — runs to
    the continuation holding the inputs' as they were and the output's at the payload of the five inputs. -/
theorem sound_kernel1 (c : Dev nD) (E : Set ℕ) (i : grid1.Coords)
    (arg1 : Memref sig .tc .vmem S1024x1024 .f32) (harg1 : arg1.IsWhole)
    (arg2 : Memref sig .tc .vmem S1024x1024 .bf16) (harg2 : arg2.IsWhole)
    (arg3 : Memref sig .tc .vmem S1x1 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1024x1024 .f32) (harg6 : arg6.IsWhole)
    (x0 : Vec F S1024x1024 .f32) (x1 : Vec F S1024x1024 .bf16) (x2 : Vec F S1x1 .f32) (x3 x4 : Vec F S1x1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__fp8_linear_kernel i arg1 harg1 arg2 harg2 arg3 harg3 arg4 harg4 arg5 harg5 arg6 harg6) K := by
  simp only [cc1__fp8_linear_kernel_eq_skeleton]; unfold cc1__fp8_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  unfold out1_5
  rw [readAt_S1x1, readAt_S1024x1024, readAt_S1024x1024, readAt_S1x1024, readAt_S1x1024]

/-! ## The body obligation, at a generic grid point -/

/-- What the body is called with at grid point `t`: the invariant, what the core owes, and the six windows' current
    staging buffers at whatever the pipeline left in them, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: each input buffer holds its window's block there, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second region at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
import proofs.«101461_j30777735643613_2_alg».proof.Proof.Gen.Kernel.Launch
import proofs.«101461_j30777735643613_2_alg».proof.Proof.Gen.Kernel.Skeleton
import proofs.«101461_j30777735643613_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«101461_j30777735643613_2_alg».proof.Proof.Gen.Kernel.Regions
import proofs.«101461_j30777735643613_2_alg».proof.Proof.KBody0
import proofs.«101461_j30777735643613_2_alg».proof.Proof.KBody1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main

@main is: the first region, four stretches of host operations, the second region. The contents of a core's
buffers are followed through them: a region leaves each of its arrays at what its write-backs make of it and every
other buffer alone; a host stretch applies its operations. -/

/-- Core `c`'s buffers at launch. -/
abbrev W0 : Dev nD → Valuation τ sig (Elt F) := fun c b => m (c, b)
/-- The same read at the TensorCore's references: what the first region finds. -/
abbrev V0 : (c : Dev nD) → (b : Ref sig .tc) → Buf (Elt F) ((c : Thread nD τ).loc b) := fun c b => W0 m c b
/-- After the first region: its arrays at what the pipeline leaves, every other buffer as found. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After each of the four host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
/-- What the second region finds. -/
abbrev V5 : (c : Dev nD) → (b : Ref sig .tc) → Buf (Elt F) ((c : Thread nD τ).loc b) := fun c b => W5 m c b
/-- After the second region. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- A buffer no host stretch writes passes through the four stretches unchanged. -/
theorem W5_of (c : Dev nD) (r : Ref sig .tc) (h1 : r ∉ hostOps1_W) (h2 : r ∉ hostOps1_1_W) (h3 : r ∉ hostOps1_2_W) (h4 : r ∉ hostOps1_3_W) :
    W5 m c (Proc.devRef .tc r) = W1 m c (Proc.devRef .tc r) :=
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

/-! ## The arguments end as launched -/

/-- `x` is read through an input window by both regions and written by nothing. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 0).trans (((dat1 (V5 m) c).arrAt_in 0 rfl _).trans (A_eq1 (V5 m) c 0))
    _ = W1 m c (Proc.devRef .tc main_arg0) := W5_of m c main_arg0 (by decide) (by decide) (by decide) (by decide)
    _ = W0 m c (Proc.devRef .tc main_arg0) := (W1_arr m c 0).trans (((dat0 (V0 m) c).arrAt_in 0 rfl _).trans (A_eq0 (V0 m) c 0))
    _ = m ((c : Thread nD τ).loc main_arg0) := rfl
/-- The weight and the bias are arrays of neither region and written by nothing. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W1 m c (Proc.devRef .tc main_arg1) := W5_of m c main_arg1 (by decide) (by decide) (by decide) (by decide)
    _ = W0 m c (Proc.devRef .tc main_arg1) := W1_of_ne m c main_arg1 (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W1 m c (Proc.devRef .tc main_arg2) := W5_of m c main_arg2 (by decide) (by decide) (by decide) (by decide)
    _ = W0 m c (Proc.devRef .tc main_arg2) := W1_of_ne m c main_arg2 (by decide)
    _ = m ((c : Thread nD τ).loc main_arg2) := rfl
/-- The result array is the second region's output window's array. -/
theorem W6_main_v22 (c : Dev nD) : W6 m c (Proc.devRef .tc main_v22) = (dat1 (V5 m) c).arrAt 5 cfg1.N :=
  W6_arr m c 5

/-! ## The proof data family and the thread state -/

abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The first region: entered with every unscoped buffer as launched, left with them at `W1`. Its two arrays are
    split out of the unscoped buffers on entry and put back at their final contents on exit; the generator register
    goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with the unscoped buffers at `W5`, left with them at `W6`, the last contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each unscoped buffer holds the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.Body0.lean ====
import proofs.«101461_j30777735643613_2_alg».proof.Proof.Gen.KernelIdeal.Launch
import proofs.«101461_j30777735643613_2_alg».proof.Proof.Gen.KernelIdeal.Skeleton
import proofs.«101461_j30777735643613_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the first region at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one-element rectangle the body stores the running maximum through. -/
abbrev r0_out : Rect S1x1x1 := Rect.unit (s := S1x1x1) ![0, 0, 0] S1x1x1.size inb_S1x1x1_S1x1x1_0_0_0

/-- The running maximum: what the one-element output buffer holds after the body at position `n` of the grid.
    At the first of a core's eight row blocks it is the block's own maximum of absolute values; at a later one it is
    the larger of what the point before left and the block's own maximum. -/
def acc0 (c : Dev nD) : (n : ℕ) → n < cfg0.N → Vec F S1x1x1 .f32
  | 0, hn => View.canon [⟨r0_out, k0_pay1 (iblk0 V c 0 ⟨0, hn⟩)⟩]
  | n + 1, hn =>
    if (n + 1) % 8 = 0 then View.canon [⟨r0_out, k0_pay1 (iblk0 V c 0 ⟨n + 1, hn⟩)⟩]
    else View.canon [⟨r0_out, k0_pay2 (iblk0 V c 0 ⟨n + 1, hn⟩) (acc0 c n (Nat.lt_of_succ_lt hn))⟩]

/-! ## A load through the whole of a shape -/

/-- A load through the unit-stride rectangle that starts at the origin and has the shape's own sizes reads the
    contents themselves: index `x` is placed at `0 + 1 * x`. -/
theorem ld_full {Val : EltTy → Type} {S : Shape} {e : EltTy} (X : S.Idx → Val e) (off : Fin S.rank → ℕ)
    (inb : ∀ a, off a + S.size a ≤ S.size a) (h0 : ∀ a, off a = 0) :
    View.ld X (Rect.unit (s := S) off S.size inb) = X := by
  funext x
  show X ((Rect.unit (s := S) off S.size inb).idx x) = X x
  congr 1
  funext a
  apply Fin.ext
  show off a + 1 * (x a : ℕ) = x a
  rw [h0 a]; omega

/-- The rectangle the body loads its input block through: the whole block. -/
abbrev r0_in : Rect S2048x1024 := Rect.unit (s := S2048x1024) ![0, 0] S2048x1024.size inb_S2048x1024_S2048x1024_0_0

/-- What the whole-block load reads of a buffer: the buffer's contents. -/
theorem readAt_in (v : View sig .tc .vmem S2048x1024 .f32) (f : v.ty.Contents (Elt F)) :
    View.readAt (Elt F) v r0_in.toLoadRect f = v.read (Elt F) f :=
  (View.readAt_eq_ld v f r0_in).trans (ld_full _ _ _ (by decide))

/-- What the load of the one-element buffer reads: its contents. -/
theorem readAt_out (v : View sig .tc .vmem S1x1x1 .f32) (f : v.ty.Contents (Elt F)) :
    View.readAt (Elt F) v r0_out.toLoadRect f = v.read (Elt F) f :=
  (View.readAt_eq_ld v f r0_out).trans (ld_full _ _ _ (by decide))

/-! ## The schedule of the body's two conditionals -/

/-- The output window is stored at every point (one of the two conditions holds at each). -/
theorem live0_1 : ∀ i : cfg0.grid.Coords, cfg0.idle 1 i = false :=
  (by decide +kernel : ∀ i : grid0.Coords, idle0 1 i = false)

/-- The first conditional (`i1 = 0`) is taken at the first of a core's eight row blocks only, -/
theorem hcond0_1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- and the second (`i1 > 0`) at the seven others. -/
theorem hcond0_2 : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-! ## The body's triple, case by case -/

/-- The single store through the one-element rectangle covers the one-element buffer. -/
theorem cover0 (p : Vec F S1x1x1 .f32) (y : S1x1x1.Idx) :
    ∃ pc ∈ ([⟨r0_out, p⟩] : List (View.Piece (Elt F) S1x1x1 .f32)), y ∈ pc.1.set :=
  View.cover_of_tiled [⟨r0_out, p⟩] S1x1x1.size (by rfl) y

set_option maxHeartbeats 1000000 in
/-- At the first of a core's row blocks (first condition true, second false): on whole staging memrefs, the input's at
    `x0` and the output's at anything, the body runs to the continuation holding the input's as it was and the output's
    at the block's maximum of absolute values. -/
theorem sound_kernel0_A (c : Dev nD) (E : Set ℕ) (i : grid0.Coords)
    (arg2 : Memref sig .tc .vmem S2048x1024 .f32) (harg2 : arg2.IsWhole) (arg3 : Memref sig .tc .vmem S1x1x1 .f32) (harg3 : arg3.IsWhole)
    (h1 : k0_cond1 i = 1#1) (h2 : ¬k0_cond2 i = 1#1)
    (x0 : Vec F S2048x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (View.canon [⟨r0_out, k0_pay1 x0⟩])) -∗ K ⟨⟩))
      ⊢ wp frame (wpE (defs₀ (F := F)) Variants.none c none) E (cc0__amax_kernel i arg2 harg2 arg3 harg3) K := by
  simp only [cc0__amax_kernel_eq_skeleton]; unfold cc0__amax_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  refine (View.read_writes_eq_canon _ _ _ (cover0 _)).trans ?_
  rw [readAt_in]

set_option maxHeartbeats 1000000 in
/-- At a later row block (first condition false, second true): the output's staging memref holding the carried value
    `xo`, the body leaves there the larger of `xo` and the block's maximum of absolute values. -/
theorem sound_kernel0_B (c : Dev nD) (E : Set ℕ) (i : grid0.Coords)
    (arg2 : Memref sig .tc .vmem S2048x1024 .f32) (harg2 : arg2.IsWhole) (arg3 : Memref sig .tc .vmem S1x1x1 .f32) (harg3 : arg3.IsWhole)
    (h1 : ¬k0_cond1 i = 1#1) (h2 : k0_cond2 i = 1#1)
    (x0 : Vec F S2048x1024 .f32) (xo : Vec F S1x1x1 .f32) (K : PUnit → sProp 𝕄) :
    iprop(owns (c : Thread nD τ) arg2 fullShare x0 ∗ owns (c : Thread nD τ) arg3 fullShare xo
        ∗ (iprop(owns (c : Thread nD τ) arg2 fullShare x0 ∗ owns (c : Thread nD τ) arg3 fullShare (View.canon [⟨r0_out, k0_pay2 x0 xo⟩])) -∗ K ⟨⟩))
      ⊢ wp frame (wpE (defs₀ (F := F)) Variants.none c none) E (cc0__amax_kernel i arg2 harg2 arg3 harg3) K := by
  simp only [cc0__amax_kernel_eq_skeleton]; unfold cc0__amax_kernel_skel
  unfold owns
  iintro ⟨⟨%f0, %hf0, H0⟩, ⟨%f1, %hf1, H1⟩, Hk⟩
  subst hf0; subst hf1
  sl_exec (disch := first | exact h1 | exact h2)
  sl_step
  iapply Hk
  isplitl [H0]
  · iexists f0; isplitr; · ipureintro; rfl
    iexact H0
  iexists _; isplitr
  swap; · iexact H1
  ipureintro
  refine (View.read_writes_eq_canon _ _ _ (cover0 _)).trans ?_
  rw [readAt_in, readAt_out]

/-! ## The running maximum in closed form -/

/-- At the first of a core's row blocks the running maximum is the block's own. -/
theorem acc0_A (c : Dev nD) (t : Fin cfg0.N) (h0 : t.val % 8 = 0) :
    acc0 V c t.val t.isLt = View.canon [⟨r0_out, k0_pay1 (iblk0 V c 0 t)⟩] := by
  obtain ⟨n, hn⟩ := t
  cases n with
  | zero => rfl
  | succ n => exact (if_pos h0).trans rfl

/-- At a later one it is the larger of what the point before left and the block's own. -/
theorem acc0_B (c : Dev nD) (t : Fin cfg0.N) (h0 : ¬t.val % 8 = 0) :
    acc0 V c t.val t.isLt = View.canon [⟨r0_out, k0_pay2 (iblk0 V c 0 t)
      (acc0 V c (t.val - 1) (Nat.lt_of_le_of_lt (Nat.sub_le _ _) t.isLt))⟩] := by
  obtain ⟨n, hn⟩ := t
  cases n with
  | zero => exact absurd (Nat.zero_mod _) h0
  | succ n => exact (if_neg h0).trans rfl

/-- The proof data of the first region on core `c`: arrays as found; the input buffer at its block, the output
    buffer at the running maximum; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = acc0 V c t.val t.isLt := by
  dsimp only [dat0]

theorem after0_0 (c : Dev nD) (t : Fin cfg0.N) : (dat0 V c).after 0 t = iblk0 V c 0 t := by
  dsimp only [dat0]

/-- The input window is fetched at every point, so its current staging buffer holds the point's block. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)

/-- At a point that is not the first of a core's eight, the output's current staging buffer still holds what the body
    left at the point before: the point is not the first of the grid, the buffer was not written back in between (that
    happens after a core's last row block only), and the window is stored at every point and is uncut. -/
theorem before0_1_B (c : Dev nD) (t : Fin cfg0.N) (h0 : ¬t.val % 8 = 0) (d) :
    (dat0 V c).before 1 t d = acc0 V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dat0]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the input's memref holds its block; the closed forms of the two conditions say which case the
    point is in; in the second the output's memref holds what the point before left; so the case's triple applies. The
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 8 = 0
  · rw [acc0_A V c t h0]
    iintro ⟨HΦ, Ho, ⟨%d0, H0⟩, ⟨%d1, H1⟩⟩
    iapply (sound_kernel0_A c Set.univ (grid0.coords t) _ _ _ _ ((hcond0_1 t).mpr h0)
      (fun h => (hcond0_2 t).mp h h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [acc0_B V c t h0]
    simp only [before0_1_B V c t h0]
    iintro ⟨HΦ, Ho, ⟨%d0, H0⟩, ⟨%d1, H1⟩⟩
    iapply (sound_kernel0_B c Set.univ (grid0.coords t) _ _ _ _ (fun h => h0 ((hcond0_1 t).mp h))
      ((hcond0_2 t).mpr h0) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The body obligation of the first region at every grid point. -/
theorem body_obligation0 (c : Dev nD) : BodyObligation (dat0 (F := F) V c) (defs₀ (F := F)) Variants.none () Set.univ := fun t => by
  rw [bigSep_W0, bigSep_W0]
  rw [show cfg0.idle (1 : Fin 2) (cfg0.grid.coords t) = false from live0_1 _]
  exact sound_body0 V c t

end Cert.KernelIdeal.Hand

end
-- ==== Proof.Body1.lean ====
import proofs.«101461_j30777735643613_2_alg».proof.Proof.Gen.KernelIdeal.Launch
import proofs.«101461_j30777735643613_2_alg».proof.Proof.Gen.KernelIdeal.Skeleton
import proofs.«101461_j30777735643613_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the second region at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024×1024 rectangle the body stores its result through. -/
abbrev r1_out : Rect S1024x1024 := Rect.unit (s := S1024x1024) ![0, 0] S1024x1024.size inb_S1024x1024_S1024x1024_0_0

/-- What the body leaves in the output block: its one store of the payload of the five loaded blocks
    (row block of x, the transposed quantized weight, the input scale, the scale product row, the bias row). -/
def out1_5 (x0 : Vec F S1024x1024 .f32) (x1 : Vec F S1024x1024 .bf16) (x2 : Vec F S1x1 .f32) (x3 x4 : Vec F S1x1024 .f32) :
    Vec F S1024x1024 .f32 :=
  View.canon [⟨r1_out, k1_pay1 x2 x0 x1 x3 x4⟩]

/-- The proof data of the second region on core `c`: arrays as found; each input buffer at its block, the output
    buffer at the payload of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What the body finds in its five input buffers -/

/-- Input window 0's current staging buffer holds its block at every grid point, whether or not the pipeline
    fetched it there: where it is not fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, whether or not the pipeline
    fetched it there: where it is not fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, whether or not the pipeline
    fetched it there: where it is not fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, whether or not the pipeline
    fetched it there: where it is not fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every grid point, whether or not the pipeline
    fetched it there: where it is not fetched its block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's loads and its one store go through whole rectangles -/

theorem zero2 : (![0, 0] : Fin 2 → Nat) = fun _ => 0 := funext fun a => by fin_cases a <;> rfl

/-- A load through the whole rectangle of a 1024×1024 buffer reads the buffer's contents, -/
theorem readAt_S1024x1024 {κ : Kind} {sp : Space} {e : EltTy} (v : View sig κ sp S1024x1024 e) (f : v.ty.Contents (Elt F)) :
    v.readAt (Elt F) (Rect.unit (s := S1024x1024) ![0, 0] S1024x1024.size inb_S1024x1024_S1024x1024_0_0).toLoadRect f = v.read (Elt F) f :=
  View.ld_unit_zero (S := S1024x1024) zero2 inb_S1024x1024_S1024x1024_0_0 (v.read (Elt F) f)

/-- likewise of a 1×1024 row -/
theorem readAt_S1x1024 {κ : Kind} {sp : Space} {e : EltTy} (v : View sig κ sp S1x1024 e) (f : v.ty.Contents (Elt F)) :
    v.readAt (Elt F) (Rect.unit (s := S1x1024) ![0, 0] S1x1024.size inb_S1x1024_S1x1024_0_0).toLoadRect f = v.read (Elt F) f :=
  View.ld_unit_zero (S := S1x1024) zero2 inb_S1x1024_S1x1024_0_0 (v.read (Elt F) f)

/-- and of the one-element buffer. -/
theorem readAt_S1x1 {κ : Kind} {sp : Space} {e : EltTy} (v : View sig κ sp S1x1 e) (f : v.ty.Contents (Elt F)) :
    v.readAt (Elt F) (Rect.unit (s := S1x1) ![0, 0] S1x1.size inb_S1x1_S1x1_0_0).toLoadRect f = v.read (Elt F) f :=
  View.ld_unit_zero (S := S1x1) zero2 inb_S1x1_S1x1_0_0 (v.read (Elt F) f)

/-- The one store covers the output buffer. -/
theorem cover1_5 (p0 : Vec F S1024x1024 .f32) (y : S1024x1024.Idx) :
    ∃ pc ∈ ([⟨r1_out, p0⟩] : List (View.Piece (Elt F) S1024x1024 .f32)), y ∈ pc.1.set :=
  ⟨_, List.mem_singleton_self _, View.mem_set_unit_zero (S := S1024x1024) zero2 inb_S1024x1024_S1024x1024_0_0 y⟩

/-! ## The body's triple -/

set_option maxHeartbeats 1000000 in
/-- The body on whole staging memrefs — the five inputs' at read contents `x0 … x4`, the output's at anything — runs to
    the continuation holding the inputs' as they were and the output's at the payload of the five inputs. -/
theorem sound_kernel1 (c : Dev nD) (E : Set ℕ) (i : grid1.Coords)
    (arg1 : Memref sig .tc .vmem S1024x1024 .f32) (harg1 : arg1.IsWhole)
    (arg2 : Memref sig .tc .vmem S1024x1024 .bf16) (harg2 : arg2.IsWhole)
    (arg3 : Memref sig .tc .vmem S1x1 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1024x1024 .f32) (harg6 : arg6.IsWhole)
    (x0 : Vec F S1024x1024 .f32) (x1 : Vec F S1024x1024 .bf16) (x2 : Vec F S1x1 .f32) (x3 x4 : Vec F S1x1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__fp8_linear_kernel i arg1 harg1 arg2 harg2 arg3 harg3 arg4 harg4 arg5 harg5 arg6 harg6) K := by
  simp only [cc1__fp8_linear_kernel_eq_skeleton]; unfold cc1__fp8_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  unfold out1_5
  rw [readAt_S1x1, readAt_S1024x1024, readAt_S1024x1024, readAt_S1x1024, readAt_S1x1024]

/-! ## The body obligation, at a generic grid point -/

/-- What the body is called with at grid point `t`: the invariant, what the core owes, and the six windows' current
    staging buffers at whatever the pipeline left in them, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: each input buffer holds its window's block there, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second region at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
import proofs.«101461_j30777735643613_2_alg».proof.Proof.Gen.KernelIdeal.Launch
import proofs.«101461_j30777735643613_2_alg».proof.Proof.Gen.KernelIdeal.Skeleton
import proofs.«101461_j30777735643613_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«101461_j30777735643613_2_alg».proof.Proof.Gen.KernelIdeal.Regions
import proofs.«101461_j30777735643613_2_alg».proof.Proof.Body0
import proofs.«101461_j30777735643613_2_alg».proof.Proof.Body1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main

@main is: the first region, four stretches of host operations, the second region. The contents of a core's
buffers are followed through them: a region leaves each of its arrays at what its write-backs make of it and every
other buffer alone; a host stretch applies its operations. -/

/-- Core `c`'s buffers at launch. -/
abbrev W0 : Dev nD → Valuation τ sig (Elt F) := fun c b => m (c, b)
/-- The same read at the TensorCore's references: what the first region finds. -/
abbrev V0 : (c : Dev nD) → (b : Ref sig .tc) → Buf (Elt F) ((c : Thread nD τ).loc b) := fun c b => W0 m c b
/-- After the first region: its arrays at what the pipeline leaves, every other buffer as found. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After each of the four host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
/-- What the second region finds. -/
abbrev V5 : (c : Dev nD) → (b : Ref sig .tc) → Buf (Elt F) ((c : Thread nD τ).loc b) := fun c b => W5 m c b
/-- After the second region. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- A buffer no host stretch writes passes through the four stretches unchanged. -/
theorem W5_of (c : Dev nD) (r : Ref sig .tc) (h1 : r ∉ hostOps1_W) (h2 : r ∉ hostOps1_1_W) (h3 : r ∉ hostOps1_2_W) (h4 : r ∉ hostOps1_3_W) :
    W5 m c (Proc.devRef .tc r) = W1 m c (Proc.devRef .tc r) :=
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

/-! ## The arguments end as launched -/

/-- `x` is read through an input window by both regions and written by nothing. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 0).trans (((dat1 (V5 m) c).arrAt_in 0 rfl _).trans (A_eq1 (V5 m) c 0))
    _ = W1 m c (Proc.devRef .tc main_arg0) := W5_of m c main_arg0 (by decide) (by decide) (by decide) (by decide)
    _ = W0 m c (Proc.devRef .tc main_arg0) := (W1_arr m c 0).trans (((dat0 (V0 m) c).arrAt_in 0 rfl _).trans (A_eq0 (V0 m) c 0))
    _ = m ((c : Thread nD τ).loc main_arg0) := rfl
/-- The weight and the bias are arrays of neither region and written by nothing. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W1 m c (Proc.devRef .tc main_arg1) := W5_of m c main_arg1 (by decide) (by decide) (by decide) (by decide)
    _ = W0 m c (Proc.devRef .tc main_arg1) := W1_of_ne m c main_arg1 (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W1 m c (Proc.devRef .tc main_arg2) := W5_of m c main_arg2 (by decide) (by decide) (by decide) (by decide)
    _ = W0 m c (Proc.devRef .tc main_arg2) := W1_of_ne m c main_arg2 (by decide)
    _ = m ((c : Thread nD τ).loc main_arg2) := rfl
/-- The result array is the second region's output window's array. -/
theorem W6_main_v22 (c : Dev nD) : W6 m c (Proc.devRef .tc main_v22) = (dat1 (V5 m) c).arrAt 5 cfg1.N :=
  W6_arr m c 5

/-! ## The proof data family and the thread state -/

abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The first region: entered with every unscoped buffer as launched, left with them at `W1`. Its two arrays are
    split out of the unscoped buffers on entry and put back at their final contents on exit; the generator register
    goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with the unscoped buffers at `W5`, left with them at `W6`, the last contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each unscoped buffer holds the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.RefValue.lean ====
/-
  The reference program's result, at the ideal instance (floats are extended reals, operations exact), as a
  function of its three argument arrays, in five named pieces, and that function read at an index.

    s   = max (max |x| / 448) 1e-12                       the input scale (rank 0)           `SIN`
    xq  = roundeven (min 448 (max (-448) (x / s)))        the quantized input                `XQ`
    ws  = max (rowmax |w| / 448) 1e-12                    the per-row weight scale           `WS`
    wq  = roundeven (min 448 (max (-448) (w / ws)))       the quantized weight               `WQ`
    out = (xq · wqᵀ) * (s * ws) + b                       the result                         `G`

  Each piece is the literal chain of the printed operations, so the run's composed term IS `G` of the arguments
  (`run_G`), and `G` at `(t, o)` is `(∑ k, xq (t, k) * wq (o, k)) * (s * ws o) + b o` (`G_apply`): the stages of the
  generated read module chained outermost first, their index functions identified with the coordinates.
  `WS` and `WQ` are never unfolded below: the other program applies the very same chains to `w`.
-/
import proofs.«101461_j30777735643613_2_alg».proof.Proof.Gen.ReferenceIdeal.Run
import proofs.«101461_j30777735643613_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The five pieces -/

/-- The input scale: the maximum of `|x|` over the whole array (from `-∞`), divided by `448`, floored at `1e-12`. -/
def SIN (x : FVec Ideal S32768x1024 .f32) : FVec Ideal S_ .f32 :=
  maximumf (Host.divf (Host.reduce (FloatOps.maximumf (F := Ideal)) (Host.absf (F := Ideal) x) (constant (F := Ideal) S_ .f32 0xFF800000#32) reducesTo_S32768x1024_S_d0_1 h_S_) (constant (F := Ideal) S_ .f32 0x43E00000#32)) (constant (F := Ideal) S_ .f32 0x2B8CBCCC#32)

/-- The quantized input for a scale `s`: `x / s` clipped to `[-448, 448]` and rounded to nearest, ties to even. -/
def XQ (x : FVec Ideal S32768x1024 .f32) (s : FVec Ideal S_ .f32) : FVec Ideal S32768x1024 .f32 :=
  Host.roundeven (F := Ideal) (minimumf (broadcastInDim S32768x1024 ![] bcast_S_S32768x1024 (id (constant (F := Ideal) S_ .f32 0x43E00000#32))) (maximumf (broadcastInDim S32768x1024 ![] bcast_S_S32768x1024 (id (constant (F := Ideal) S_ .f32 0xC3E00000#32))) (Host.divf (F := Ideal) x (broadcastInDim S32768x1024 ![] bcast_S_S32768x1024 s))))

/-- The weight scales: each row's maximum of `|w|` (from `-∞`), divided by `448`, floored at `1e-12`. -/
def WS (w : FVec Ideal S1024x1024 .f32) : FVec Ideal S1024 .f32 :=
  maximumf (Host.divf (F := Ideal) (Host.reduce (FloatOps.maximumf (F := Ideal)) (Host.absf (F := Ideal) w) (constant (F := Ideal) S_ .f32 0xFF800000#32) reducesTo_S1024x1024_S1024_d1 h_S_) (broadcastInDim S1024 ![] bcast_S_S1024 (constant (F := Ideal) S_ .f32 0x43E00000#32))) (broadcastInDim S1024 ![] bcast_S_S1024 (constant (F := Ideal) S_ .f32 0x2B8CBCCC#32))

/-- The quantized weight: `w` over its row's scale, clipped to `[-448, 448]` and rounded to nearest, ties to even. -/
def WQ (w : FVec Ideal S1024x1024 .f32) : FVec Ideal S1024x1024 .f32 :=
  Host.roundeven (F := Ideal) (minimumf (broadcastInDim S1024x1024 ![] bcast_S_S1024x1024 (id (constant (F := Ideal) S_ .f32 0x43E00000#32))) (maximumf (broadcastInDim S1024x1024 ![] bcast_S_S1024x1024 (id (constant (F := Ideal) S_ .f32 0xC3E00000#32))) (Host.divf (F := Ideal) w (broadcastInDim S1024x1024 ![0, 1] bcast_S1024x1_S1024x1024_0_1 (broadcastInDim S1024x1 ![0] bcast_S1024_S1024x1_0 (WS w))))))

/-- The result: the product of the quantized input with the quantized weight's transpose, each column scaled back by
    `s * ws`, plus the bias row. -/
def G (x : FVec Ideal S32768x1024 .f32) (w : FVec Ideal S1024x1024 .f32) (b : FVec Ideal S1024 .f32) : FVec Ideal S32768x1024 .f32 :=
  addf (mulf (Host.dotGeneral (F := Ideal) dot_S32768x1024_S1024x1024_S32768x1024_1_1_0_0_n_n none (XQ x (SIN x)) (WQ w)) (broadcastInDim S32768x1024 ![0, 1] bcast_S1x1024_S32768x1024_0_1 (broadcastInDim S1x1024 ![1] bcast_S1024_S1x1024_1 (mulf (broadcastInDim S1024 ![] bcast_S_S1024 (SIN x)) (WS w))))) (broadcastInDim S32768x1024 ![0, 1] bcast_S1x1024_S32768x1024_0_1 (broadcastInDim S1x1024 ![1] bcast_S1024_S1x1024_1 b))

/-! ## The pieces are the generated stages -/

theorem SIN_eq (x : FVec Ideal S32768x1024 .f32) : val_main_v3 (F := Ideal) x = SIN x := rfl
theorem XQ_eq (x : FVec Ideal S32768x1024 .f32) : val_main_v7 (F := Ideal) x = XQ x (SIN x) := rfl
theorem WS_eq (w : FVec Ideal S1024x1024 .f32) : val_main_v13 (F := Ideal) w = WS w := rfl
theorem WQ_eq (w : FVec Ideal S1024x1024 .f32) : val_main_v18 (F := Ideal) w = WQ w := rfl
theorem G_eq (x : FVec Ideal S32768x1024 .f32) (w : FVec Ideal S1024x1024 .f32) (b : FVec Ideal S1024 .f32) :
    val_main_v27 (F := Ideal) x w b = G x w b := rfl

/-! ## The run -/

/-- From any memory with zero counters, every weakly fair execution of the reference terminates with its result at
    `G` of the arguments' launch contents, and the arguments unchanged. -/
theorem run_G (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v27)
        = G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans ((val_main_v27_eq (F := Ideal) _ _ _).trans (G_eq _ _ _)), (h c).2⟩)
    (Cert.ReferenceIdeal.Value.run (F := Ideal) m' ρ')

/-! ## The result at an index -/

/-- The quantized input at `(t, k)`: the element over the scale, clipped and rounded. -/
theorem XQ_apply (x : FVec Ideal S32768x1024 .f32) (s : FVec Ideal S_ .f32) (t : Fin 32768) (k : Fin 1024) :
    XQ x s (ix2 t k) = Ideal.liftRound Ideal.roundHalfEven (min (Ideal.ofBits .f32 0x43E00000#32)
      (max (Ideal.ofBits .f32 0xC3E00000#32) (Ideal.div (x (ix2 t k)) (s ix0)))) := by
  have hb : ∀ y : FVec Ideal S_ .f32, broadcastInDim S32768x1024 ![] bcast_S_S32768x1024 y (ix2 t k) = y ix0 :=
    fun y => broadcastInDim_apply _ bcast_S_S32768x1024 y (ix2 t k) ix0 (fun a => a.elim0)
  show Ideal.liftRound Ideal.roundHalfEven (min (broadcastInDim S32768x1024 ![] bcast_S_S32768x1024 (id (constant (F := Ideal) S_ .f32 0x43E00000#32)) (ix2 t k))
      (max (broadcastInDim S32768x1024 ![] bcast_S_S32768x1024 (id (constant (F := Ideal) S_ .f32 0xC3E00000#32)) (ix2 t k))
        (Ideal.div (x (ix2 t k)) (broadcastInDim S32768x1024 ![] bcast_S_S32768x1024 s (ix2 t k))))) = _
  rw [hb, hb, hb]
  rfl

/-- The result at `(t, o)`: the contraction of row `t` of the quantized input with row `o` of the quantized weight,
    scaled back by `s * ws o`, plus `b o`. -/
theorem G_apply (x : FVec Ideal S32768x1024 .f32) (w : FVec Ideal S1024x1024 .f32) (b : FVec Ideal S1024 .f32)
    (t : Fin 32768) (o : Fin 1024) :
    G x w b (ix2 t o) = (∑ k : Fin 1024, XQ x (SIN x) (ix2 t k) * WQ w (ix2 o k)) * (SIN x ix0 * WS w (ix1 o)) + b (ix1 o) := by
  have el : ∀ k : Fin 1024, lidx_main_v19 (ix2 t o) k = ix2 t k := fun k =>
    funext fun a => Fin.ext (by match a with | ⟨0, _⟩ => rfl | ⟨1, _⟩ => rfl)
  have er : ∀ k : Fin 1024, ridx_main_v19 (ix2 t o) k = ix2 o k := fun k =>
    funext fun a => Fin.ext (by match a with | ⟨0, _⟩ => rfl | ⟨1, _⟩ => rfl)
  have e22 : idx_main_v22 (idx_main_v23 (ix2 t o)) = ix1 o :=
    funext fun a => Fin.ext (by match a with | ⟨0, _⟩ => rfl)
  have e25 : idx_main_v25 (idx_main_v26 (ix2 t o)) = ix1 o :=
    funext fun a => Fin.ext (by match a with | ⟨0, _⟩ => rfl)
  have e20 : idx_main_v20 (ix1 o) = ix0 := rfl
  rw [← G_eq, val_main_v27_apply, val_main_v24_apply, val_main_v19_apply, val_main_v23_apply, val_main_v22_apply,
    val_main_v21_apply, val_main_v20_apply, val_main_v26_apply, val_main_v25_apply, e22, e25, e20,
    XQ_eq, WQ_eq, SIN_eq, WS_eq]
  simp only [el, er]
  rfl

end Cert.ReferenceIdeal.RefValue

end
-- ==== Proof.Value0.lean ====
import proofs.«101461_j30777735643613_2_alg».proof.Proof.Body0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-! # The array the first region leaves

The grid has 16 points, eight per core: point `t` reads row block `t` of `x` and keeps, in the one-element block
(⌊t/8⌋, 0, 0) of the [2,1,1] result, the running maximum of |x| over core ⌊t/8⌋'s row blocks so far. The block is
written back only at the last of a core's eight points (t ≡ 7 mod 8), so entry (k, 0, 0) of the result is the running
maximum at position 8·k + 7. -/

/-- The printed index map of the result window over the grid: point `t` sits at block (⌊t/8⌋, 0, 0). -/
theorem idx_facts0 : ∀ t : Fin cfg0.N, win0_1.index t (0 : Fin 3) = t.val / 8 ∧ win0_1.index t (1 : Fin 3) = 0
    ∧ win0_1.index t (2 : Fin 3) = 0 :=
  (by decide +kernel : ∀ t : Fin grid0.N, _)

/-- The last of core `i 0`'s eight points is a point of the grid. -/
theorem bound0 (i : S2x1x1.Idx) : 8 * (i 0).val + 7 < cfg0.N := by
  have h : (i 0).val < 2 := (i 0).isLt
  rw [show cfg0.N = 16 from N_0]; omega

/-- Entry (k,0,0) of the first region's result: the running maximum after the last of core k's eight row blocks. -/
def P0 (c : Dev nD) : S2x1x1.Idx → Elt F .f32 :=
  fun i => acc0 V c (8 * (i 0).val + 7) (bound0 i) (ix3 (0 : Fin 1) (0 : Fin 1) (0 : Fin 1))

/-- The running maximum depends on the position as a number only. -/
theorem acc0_congr (c : Dev nD) (n m : ℕ) (hn : n < cfg0.N) (hm : m < cfg0.N) (e : n = m) :
    acc0 V c n hn = acc0 V c m hm := by
  subst e; rfl

/-- WHAT A WRITING POINT `t` (t ≡ 7 mod 8) WRITES BACK is block `t` of `P0`. -/
theorem flushed0_eq (c : Dev nD) (t : Fin cfg0.N) (hf : t.val % 8 = 7) :
    (dat0 V c).flushed 1 t = ((cfg0.win 1).blk t).view.read (Elt F) (P0 V c) := by
  show (cfg0.win 1).cut (grid0.coords t) ((dat0 V c).after 1 t) = _
  rw [after0_1]
  obtain ⟨e0, e1, e2⟩ := idx_facts0 t
  have hN : t.val < 16 := lt_of_lt_of_eq t.isLt (show cfg0.N = 16 from N_0)
  funext j
  have hj0 : (j 0).val < 1 := (j 0).isLt
  have hj1 : (j 1).val < 1 := (j 1).isLt
  have hj2 : (j 2).val < 1 := (j 2).isLt
  -- the array index of the block's one element
  have hemb : ((cfg0.win 1).blk t).view.emb j
      = ix3 (⟨t.val / 8, by omega⟩ : Fin 2) (0 : Fin 1) (0 : Fin 1) := by
    funext a; apply Fin.ext
    match a with
    | ⟨0, _⟩ => show win0_1.index t (0 : Fin 3) * 1 + 1 * (j 0).val = t.val / 8; omega
    | ⟨1, _⟩ => show win0_1.index t (1 : Fin 3) * 1 + 1 * (j 1).val = 0; omega
    | ⟨2, _⟩ => show win0_1.index t (2 : Fin 3) * 1 + 1 * (j 2).val = 0; omega
  -- the block's one index
  have hj : j = ix3 (0 : Fin 1) (0 : Fin 1) (0 : Fin 1) := by
    funext a; apply Fin.ext
    match a with
    | ⟨0, _⟩ => show (j 0).val = 0; omega
    | ⟨1, _⟩ => show (j 1).val = 0; omega
    | ⟨2, _⟩ => show (j 2).val = 0; omega
  show acc0 V c t.val t.isLt j = P0 V c (((cfg0.win 1).blk t).view.emb j)
  rw [hemb]
  unfold P0
  rw [hj]
  exact congrFun (acc0_congr V c _ _ _ _ (by show t.val = 8 * (t.val / 8) + 7; omega)) _

/-- An index of the result array is in point `t`'s block iff each coordinate is in the block's range. -/
theorem mem_blk0 (t : Fin cfg0.N) (i : S2x1x1.Idx) :
    i ∈ ((cfg0.win 1).blk t).view.set ↔ ∀ a : Fin 3, win0_1.index t a * S1x1x1.size a ≤ (i a).val ∧ (i a).val < win0_1.index t a * S1x1x1.size a + S1x1x1.size a := by
  show i ∈ ((View.whole main_v0).slice (win0_1.rect t)).set ↔ _
  rw [View.set_slice_whole, Rect.mem_set_unit]
  exact Iff.rfl

/-- Entry (k, 0, 0) of the result lies in the block of the point 8·k + 7, which writes back. -/
theorem cover0_arr (i : S2x1x1.Idx) :
    ∃ t : Fin cfg0.N, (cfg0.win 1).flush t = true ∧ i ∈ ((cfg0.win 1).blk t).view.set := by
  have hi0 : (i 0).val < 2 := (i 0).isLt
  have hi1 : (i 1).val < 1 := (i 1).isLt
  have hi2 : (i 2).val < 1 := (i 2).isLt
  refine ⟨⟨8 * (i 0).val + 7, bound0 i⟩, (flush0_1 _).mpr (by show (8 * (i 0).val + 7) % 8 = 7; omega), ?_⟩
  rw [mem_blk0]
  obtain ⟨e0, e1, e2⟩ := idx_facts0 ⟨8 * (i 0).val + 7, bound0 i⟩
  intro a
  match a with
  | ⟨0, _⟩ =>
    show win0_1.index _ (0 : Fin 3) * 1 ≤ (i 0).val ∧ (i 0).val < win0_1.index _ (0 : Fin 3) * 1 + 1
    rw [e0]; show (8 * (i 0).val + 7) / 8 * 1 ≤ (i 0).val ∧ (i 0).val < (8 * (i 0).val + 7) / 8 * 1 + 1; omega
  | ⟨1, _⟩ =>
    show win0_1.index _ (1 : Fin 3) * 1 ≤ (i 1).val ∧ (i 1).val < win0_1.index _ (1 : Fin 3) * 1 + 1
    rw [e1]; omega
  | ⟨2, _⟩ =>
    show win0_1.index _ (2 : Fin 3) * 1 ≤ (i 2).val ∧ (i 2).val < win0_1.index _ (2 : Fin 3) * 1 + 1
    rw [e2]; omega

/-- THE RESULT ARRAY after the first region: at (k, 0, 0) the running maximum after core k's last row block. -/
theorem final0 (c : Dev nD) : (dat0 V c).arrAt 1 cfg0.N = P0 V c :=
  (dat0 V c).arrAt_eq_of_cover 1 _ (fun t hf => flushed0_eq V c t ((flush0_1 t).mp hf)) cover0_arr

end Cert.KernelIdeal.Hand

end
-- ==== Proof.Value1.lean ====
import proofs.«101461_j30777735643613_2_alg».proof.Proof.Body1
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-! # The array the second region leaves

The grid has 32 points; point `t` reads rows [1024·t, 1024·t + 1024) of `x` and the whole of the four small
operands, and writes back rows [1024·t, 1024·t + 1024) of the result. So the result array is ONE function of the five
operand arrays: its entry (T, o) is the body's value, computed from the row block of `x` that contains row T, at
(T mod 1024, o). -/

/-- Rows [1024·⌊T/1024⌋, +1024) of a 32768-row array, as a 1024-row block. -/
def rowBlock (x : S32768x1024.Idx → Elt F .f32) (T : Fin 32768) : S1024x1024.Idx → Elt F .f32 :=
  fun y => x (ix2 (⟨T.val / 1024 * 1024 + (y 0).val, by have := T.isLt; have := idx2_lt0 y; omega⟩ : Fin 32768) (y 1))

/-- The result array as one function of the operand arrays. -/
def G1 (x : S32768x1024.Idx → Elt F .f32) (wT : S1024x1024.Idx → Elt F .bf16) (s : S1x1.Idx → Elt F .f32)
    (sp bb : S1x1024.Idx → Elt F .f32) : S32768x1024.Idx → Elt F .f32 :=
  fun i => k1_pay1 s (rowBlock x (i 0)) wT sp bb (ix2 (⟨(i 0).val % 1024, Nat.mod_lt _ (by decide)⟩ : Fin 1024) (i 1))

/-- The printed index maps over the grid: the row-block windows sit at block (t, 0), the others at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The small operands' one block is their whole array. -/
theorem iblk1_1 (c : Dev nD) (t : Fin cfg1.N) : (iblk1 V c 1 t : S1024x1024.Idx → Elt F .bf16) = V c main_v17 := by
  obtain ⟨-, -, e0, e1, -⟩ := idx_facts1 t
  funext y
  show V c main_v17 (((cfg1.win 1).blk t).view.emb y) = V c main_v17 y
  refine congrArg _ ?_
  funext a; apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega
theorem iblk1_2 (c : Dev nD) (t : Fin cfg1.N) : (iblk1 V c 2 t : S1x1.Idx → Elt F .f32) = V c main_v4 := by
  obtain ⟨-, -, -, -, e0, e1, -⟩ := idx_facts1 t
  funext y
  show V c main_v4 (((cfg1.win 2).blk t).view.emb y) = V c main_v4 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 1 + 1 * (y 1).val = (y 1).val; omega
theorem iblk1_3 (c : Dev nD) (t : Fin cfg1.N) : (iblk1 V c 3 t : S1x1024.Idx → Elt F .f32) = V c main_v20 := by
  obtain ⟨-, -, -, -, -, -, e0, e1, -⟩ := idx_facts1 t
  funext y
  show V c main_v20 (((cfg1.win 3).blk t).view.emb y) = V c main_v20 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 1024 + 1 * (y 1).val = (y 1).val; omega
theorem iblk1_4 (c : Dev nD) (t : Fin cfg1.N) : (iblk1 V c 4 t : S1x1024.Idx → Elt F .f32) = V c main_v21 := by
  obtain ⟨-, -, -, -, -, -, -, -, e0, e1, -⟩ := idx_facts1 t
  funext y
  show V c main_v21 (((cfg1.win 4).blk t).view.emb y) = V c main_v21 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 1024 + 1 * (y 1).val = (y 1).val; omega

/-- Point `t`'s block of `x` is the row block that contains any of its rows. -/
theorem iblk1_0 (c : Dev nD) (t : Fin cfg1.N) (T : Fin 32768) (hT : T.val / 1024 = t.val) :
    (iblk1 V c 0 t : S1024x1024.Idx → Elt F .f32) = rowBlock (V c main_arg0) T := by
  obtain ⟨e0, e1, -⟩ := idx_facts1 t
  funext y
  show V c main_arg0 (((cfg1.win 0).blk t).view.emb y) = V c main_arg0 _
  refine congrArg _ ?_
  funext a; apply Fin.ext
  match a with
  | ⟨0, _⟩ => show win1_0.index t (0 : Fin 2) * 1024 + 1 * (y 0).val = T.val / 1024 * 1024 + (y 0).val; omega
  | ⟨1, _⟩ => show win1_0.index t (1 : Fin 2) * 1024 + 1 * (y 1).val = (y 1).val; omega

/-- WHAT POINT `t` WRITES BACK is block `t` of `G1` of the operand arrays as the region finds them. -/
theorem flushed1_eq (c : Dev nD) (t : Fin cfg1.N) :
    (dat1 V c).flushed 5 t = ((cfg1.win 5).blk t).view.read (Elt F)
      (G1 (V c main_arg0) (V c main_v17) (V c main_v4) (V c main_v20) (V c main_v21)) := by
  show (cfg1.win 5).cut (grid1.coords t) ((dat1 V c).after 5 t) = _
  rw [after1_5]
  unfold out1_5
  rw [View.canon_unit_zero zero2]
  obtain ⟨-, -, -, -, -, -, -, -, -, -, e0, e1⟩ := idx_facts1 t
  have ht : t.val < 32 := lt_of_lt_of_eq t.isLt (show cfg1.N = 32 from N_1)
  funext j
  have hj0 : (j 0).val < 1024 := (j 0).isLt
  have hj1 : (j 1).val < 1024 := (j 1).isLt
  -- the array index of the block's element j
  have hemb : ((cfg1.win 5).blk t).view.emb j
      = ix2 (⟨t.val * 1024 + (j 0).val, by omega⟩ : Fin 32768) (⟨(j 1).val, hj1⟩ : Fin 1024) := by
    funext a; apply Fin.ext
    match a with
    | ⟨0, _⟩ => show win1_5.index t (0 : Fin 2) * 1024 + 1 * (j 0).val = t.val * 1024 + (j 0).val; omega
    | ⟨1, _⟩ => show win1_5.index t (1 : Fin 2) * 1024 + 1 * (j 1).val = (j 1).val; omega
  show k1_pay1 (iblk1 V c 2 t) (iblk1 V c 0 t) (iblk1 V c 1 t) (iblk1 V c 3 t) (iblk1 V c 4 t) j
      = G1 (V c main_arg0) (V c main_v17) (V c main_v4) (V c main_v20) (V c main_v21) (((cfg1.win 5).blk t).view.emb j)
  rw [hemb, iblk1_1, iblk1_2, iblk1_3, iblk1_4,
    iblk1_0 V c t (⟨t.val * 1024 + (j 0).val, by omega⟩ : Fin 32768) (by show (t.val * 1024 + (j 0).val) / 1024 = t.val; omega)]
  unfold G1
  refine congrArg _ ?_
  funext a; apply Fin.ext
  match a with
  | ⟨0, _⟩ => show (j 0).val = (t.val * 1024 + (j 0).val) % 1024; omega
  | ⟨1, _⟩ => rfl

/-- An index of the result array is in point `t`'s block iff each coordinate is in the block's range. -/
theorem mem_blk1 (t : Fin cfg1.N) (i : S32768x1024.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v22).slice (win1_5.rect t)).set ↔ _
  rw [View.set_slice_whole, Rect.mem_set_unit]
  exact Iff.rfl

/-- Every row of the result lies in the block of the point ⌊row / 1024⌋, which writes back. -/
theorem cover1 (i : S32768x1024.Idx) :
    ∃ t : Fin cfg1.N, (cfg1.win 5).flush t = true ∧ i ∈ ((cfg1.win 5).blk t).view.set := by
  have hi0 : (i 0).val < 32768 := (i 0).isLt
  have hi1 : (i 1).val < 1024 := (i 1).isLt
  refine ⟨⟨(i 0).val / 1024, by rw [show cfg1.N = 32 from N_1]; omega⟩, flush1_5 _, ?_⟩
  rw [mem_blk1]
  obtain ⟨-, -, -, -, -, -, -, -, -, -, e0, e1⟩ := idx_facts1 ⟨(i 0).val / 1024, by rw [show cfg1.N = 32 from N_1]; omega⟩
  intro a
  match a with
  | ⟨0, _⟩ =>
    show win1_5.index _ (0 : Fin 2) * 1024 ≤ (i 0).val ∧ (i 0).val < win1_5.index _ (0 : Fin 2) * 1024 + 1024
    rw [e0]; show (i 0).val / 1024 * 1024 ≤ (i 0).val ∧ (i 0).val < (i 0).val / 1024 * 1024 + 1024; omega
  | ⟨1, _⟩ =>
    show win1_5.index _ (1 : Fin 2) * 1024 ≤ (i 1).val ∧ (i 1).val < win1_5.index _ (1 : Fin 2) * 1024 + 1024
    rw [e1]; omega

/-- THE RESULT ARRAY after the second region: `G1` of the operand arrays as the region finds them. -/
theorem final1 (c : Dev nD) :
    (dat1 V c).arrAt 5 cfg1.N = G1 (V c main_arg0) (V c main_v17) (V c main_v4) (V c main_v20) (V c main_v21) :=
  (dat1 V c).arrAt_eq_of_cover 5 _ (fun t _ => flushed1_eq V c t) cover1

end Cert.KernelIdeal.Hand

end
-- ==== Proof.HostVals.lean ====
import proofs.«101461_j30777735643613_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-! # What the host code between the two regions computes

Between the regions the host turns the two per-core maxima into the input scale, and the weight into its
per-row scale, its rounded clipped quotient (transposed, narrowed), the product of the two scales, and reshapes the
bias. Each is named here as one function of what it is computed from; the four stretches of host operations, run from
any contents `W`, leave exactly these in the buffers the second region reads. -/

/-- The input scale from the two per-core maxima: the larger of (their maximum)/448 and the small positive floor. -/
def SK (p : FVec F S2x1x1 .f32) : FVec F S_ .f32 :=
  maximumf (Host.divf (Host.reduce FloatOps.maximumf p (constant S_ .f32 0xFF800000#32) reducesTo_S2x1x1_S_d0_1_2 h_S_)
    (constant S_ .f32 0x43E00000#32)) (constant S_ .f32 0x2B8CBCCC#32)

/-- The weight's per-row scale: the larger of (the row's maximum of absolute values)/448 and the floor. -/
def WSk (w : FVec F S1024x1024 .f32) : FVec F S1024 .f32 :=
  maximumf (Host.divf (Host.reduce FloatOps.maximumf (Host.absf w) (constant S_ .f32 0xFF800000#32) reducesTo_S1024x1024_S1024_d1 h_S_)
    (broadcastInDim S1024 ![] bcast_S_S1024 (constant S_ .f32 0x43E00000#32)))
    (broadcastInDim S1024 ![] bcast_S_S1024 (constant S_ .f32 0x2B8CBCCC#32))

/-- The quantized weight: each entry divided by its row's scale, clipped to [−448, 448], rounded half to even. -/
def WQk (w : FVec F S1024x1024 .f32) : FVec F S1024x1024 .f32 :=
  Host.roundeven (minimumf (broadcastInDim S1024x1024 ![] bcast_S_S1024x1024 (id (constant S_ .f32 0x43E00000#32)))
    (maximumf (broadcastInDim S1024x1024 ![] bcast_S_S1024x1024 (id (constant S_ .f32 0xC3E00000#32)))
      (Host.divf w (broadcastInDim S1024x1024 ![0, 1] bcast_S1024x1_S1024x1024_0_1
        (broadcastInDim S1024x1 ![0] bcast_S1024_S1024x1_0 (WSk w))))))

/-- The four host stretches, run one after the other from the contents `W`. -/
abbrev afterHost (W : Valuation τ sig (Elt F)) : Valuation τ sig (Elt F) :=
  StableHlo.after hostOps1_3 (StableHlo.after hostOps1_2 (StableHlo.after hostOps1_1 (StableHlo.after hostOps1 W)))

/-- The input scale, as a 1×1 array. -/
theorem host_v4 (W : Valuation τ sig (Elt F)) :
    (afterHost W (Proc.devRef .tc main_v4) : S1x1.Idx → Elt F .f32)
      = shapeCast S1x1 (SK (W (Proc.devRef .tc main_v0))) shapeCasts_S_S1x1 := by
  dsimp only [afterHost, hostOps1_3, hostOps1_2, hostOps1_1, hostOps1]
  after_results
  rfl

/-- The quantized weight, transposed and narrowed. -/
theorem host_v17 (W : Valuation τ sig (Elt F)) :
    (afterHost W (Proc.devRef .tc main_v17) : S1024x1024.Idx → Elt F .bf16)
      = truncf .bf16 (transpose S1024x1024 [1, 0] (WQk (W (Proc.devRef .tc main_arg1))) transposes_S1024x1024_S1024x1024_1_0) bitsLt_bf16_f32 := by
  dsimp only [afterHost, hostOps1_3, hostOps1_2, hostOps1_1, hostOps1]
  after_results
  rfl

/-- The product of the input scale and the weight's row scales, as a 1×1024 row. -/
theorem host_v20 (W : Valuation τ sig (Elt F)) :
    (afterHost W (Proc.devRef .tc main_v20) : S1x1024.Idx → Elt F .f32)
      = mulf (broadcastInDim S1x1024 ![0, 1] bcast_S1x1_S1x1024_0_1 (shapeCast S1x1 (SK (W (Proc.devRef .tc main_v0))) shapeCasts_S_S1x1))
          (shapeCast S1x1024 (WSk (W (Proc.devRef .tc main_arg1))) shapeCasts_S1024_S1x1024) := by
  dsimp only [afterHost, hostOps1_3, hostOps1_2, hostOps1_1, hostOps1]
  after_results
  rfl

/-- The bias, as a 1×1024 row. -/
theorem host_v21 (W : Valuation τ sig (Elt F)) :
    (afterHost W (Proc.devRef .tc main_v21) : S1x1024.Idx → Elt F .f32)
      = shapeCast S1x1024 (W (Proc.devRef .tc main_arg2)) shapeCasts_S1024_S1x1024 := by
  dsimp only [afterHost, hostOps1_3, hostOps1_2, hostOps1_1, hostOps1]
  after_results
  rfl

/-- No host operation writes `x`. -/
theorem host_arg0 (W : Valuation τ sig (Elt F)) :
    afterHost W (Proc.devRef .tc main_arg0) = W (Proc.devRef .tc main_arg0) := by
  dsimp only [afterHost, hostOps1_3, hostOps1_2, hostOps1_1, hostOps1]
  after_results

end Cert.KernelIdeal.Hand

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.Pay1Ideal.lean ====
/-
  The value the second region's body stores, read at an index, at the ideal values.
  At row p and column q it is the sum over k < 1024 of the quantized x (the quotient of x(p, k) by the input scale,
  clipped to [-448, 448] and rounded to the nearest integer, ties to even) times the weight w(k, q), then multiplied by
  the scale product at column q and added to the bias at column q.
-/
import proofs.«101461_j30777735643613_2_alg».proof.Proof.Gen.KernelIdeal.Skeleton
import proofs.«101461_j30777735643613_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The product's dimension numbers are those of a plain 1024×1024 by 1024×1024 product. -/
theorem dot1_eq_plain : dot_S1024x1024_S1024x1024_S1024x1024_1_0_0_1_n_n = DotDims.plain 1024 1024 1024 := rfl

/-- The one-element scale, cast to its own shape and broadcast over the block, is the scale everywhere. -/
theorem bcast_scale (x2 : Vec Ideal S1x1 .f32) (i : S1024x1024.Idx) :
    broadcastTo S1024x1024 (shapeCast S1x1 x2 shapeCasts_S1x1_S1x1) broadcasts_S1x1_S1024x1024 i = x2 (ix2 0 0) := by
  rw [shapeCast_self]
  refine broadcastTo_apply x2 broadcasts_S1x1_S1024x1024 i (ix2 (0 : Fin 1) (0 : Fin 1)) fun ax => ?_
  match ax with
  | ⟨0, _⟩ => rfl
  | ⟨1, _⟩ => rfl

/-- A row, cast to its own shape and broadcast over the block's rows, is the row at the column. -/
theorem bcast_row (x : Vec Ideal S1x1024 .f32) (p q : Fin 1024) :
    broadcastTo S1024x1024 (shapeCast S1x1024 x shapeCasts_S1x1024_S1x1024) broadcasts_S1x1024_S1024x1024 (ix2 p q) = x (ix2 0 q) := by
  rw [shapeCast_self]
  exact broadcastTo_1b_ab_apply x broadcasts_S1x1024_S1024x1024 p q

/-- The stored value at row `p`, column `q`: the clipped, rounded quotients of row `p` of x by the scale, summed against
    column `q` of the weight, times the scale product at `q`, plus the bias at `q`. -/
theorem k1_pay1_apply (x2 : Vec Ideal S1x1 .f32) (x0 : Vec Ideal S1024x1024 .f32) (x1 : Vec Ideal S1024x1024 .bf16)
    (x3 x4 : Vec Ideal S1x1024 .f32) (p q : Fin 1024) :
    k1_pay1 (F := Ideal) x2 x0 x1 x3 x4 (ix2 p q)
      = (∑ k : Fin 1024, Ideal.liftRound Ideal.roundHalfEven
            (min (Ideal.ofBits .f32 0x43E00000#32) (max (Ideal.ofBits .f32 0xC3E00000#32) (Ideal.div (x0 (ix2 p k)) (x2 (ix2 0 0)))))
          * x1 (ix2 k q)) * x3 (ix2 0 q) + x4 (ix2 0 q) := by
  unfold k1_pay1
  rw [addf_apply, mulf_apply, bcast_row, bcast_row, dot1_eq_plain, Cert.LibPlainDot.matmul_plain, shapeCast_self x1]
  refine congrArg (fun s => s * x3 (ix2 0 q) + x4 (ix2 0 q)) (Finset.sum_congr rfl fun k _ => ?_)
  show Ideal.liftRound Ideal.roundHalfEven
      (min (Ideal.ofBits .f32 0x43E00000#32) (max (Ideal.ofBits .f32 0xC3E00000#32) (Ideal.div (x0 (ix2 p k))
        (broadcastTo S1024x1024 (shapeCast S1x1 x2 shapeCasts_S1x1_S1x1) broadcasts_S1x1_S1024x1024 (ix2 p k)))))
      * x1 (ix2 k q) = _
  rw [bcast_scale]

end Cert.KernelIdeal.Hand

end
-- ==== Proof.KernelAt.lean ====
import proofs.«101461_j30777735643613_2_alg».proof.Proof.Value1
import proofs.«101461_j30777735643613_2_alg».proof.Proof.Pay1Ideal
import proofs.«101461_j30777735643613_2_alg».proof.Proof.HostVals
import Idealize.ShloMosaic.Lib.ValueLayout
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-! # The kernel's result and the host's arrays, read at an index, at the ideal values -/

/-- Row `T`'s block of `x`, read at `T`'s place in the block, is row `T` of `x`. -/
theorem rowBlock_apply (x : S32768x1024.Idx → Elt Ideal .f32) (T : Fin 32768) (k : Fin 1024) :
    rowBlock (F := Ideal) x T (ix2 (⟨T.val % 1024, Nat.mod_lt _ (by decide)⟩ : Fin 1024) k) = x (ix2 T k) := by
  unfold rowBlock
  refine congrArg x ?_
  funext a; apply Fin.ext
  match a with
  | ⟨0, _⟩ => show T.val / 1024 * 1024 + T.val % 1024 = T.val; omega
  | ⟨1, _⟩ => rfl

/-- The result array at row `T`, column `o`: the clipped, rounded quotients of row `T` of `x` by the scale, summed against
    column `o` of the weight, times the scale product at `o`, plus the bias at `o`. -/
theorem G1_apply (x : S32768x1024.Idx → Elt Ideal .f32) (wT : S1024x1024.Idx → Elt Ideal .bf16) (s : S1x1.Idx → Elt Ideal .f32)
    (sp bb : S1x1024.Idx → Elt Ideal .f32) (T : Fin 32768) (o : Fin 1024) :
    G1 (F := Ideal) x wT s sp bb (ix2 T o)
      = (∑ k : Fin 1024, Ideal.liftRound Ideal.roundHalfEven
            (min (Ideal.ofBits .f32 0x43E00000#32) (max (Ideal.ofBits .f32 0xC3E00000#32) (Ideal.div (x (ix2 T k)) (s (ix2 0 0)))))
          * wT (ix2 k o)) * sp (ix2 0 o) + bb (ix2 0 o) := by
  unfold G1
  show k1_pay1 (F := Ideal) s (rowBlock x T) wT sp bb (ix2 (⟨T.val % 1024, Nat.mod_lt _ (by decide)⟩ : Fin 1024) o) = _
  rw [k1_pay1_apply]
  refine congrArg (fun z => z * sp (ix2 0 o) + bb (ix2 0 o)) (Finset.sum_congr rfl fun k _ => ?_)
  rw [rowBlock_apply]

/-- A scalar cast to a 1×1 array reads the scalar at its one index. -/
theorem v4_at (s0 : S_.Idx → Elt Ideal .f32) : shapeCast S1x1 s0 shapeCasts_S_S1x1 (ix2 (0 : Fin 1) (0 : Fin 1)) = s0 ix0 := by
  unfold shapeCast
  exact congrArg s0 (eq_ix0 _)

/-- A vector cast to a one-row array reads the vector at the column. -/
theorem v21_at (v : S1024.Idx → Elt Ideal .f32) (o : Fin 1024) :
    shapeCast S1x1024 v shapeCasts_S1024_S1x1024 (ix2 (0 : Fin 1) o) = v (ix1 o) :=
  shapeCast_a_1a_apply v shapeCasts_S1024_S1x1024 (0 : Fin 1) o

/-- The scale product at column `o`: the input scale times the weight's scale of row `o`. -/
theorem v20_at (s0 : S_.Idx → Elt Ideal .f32) (v : S1024.Idx → Elt Ideal .f32) (o : Fin 1024) :
    mulf (F := Ideal) (φ := .f32) (broadcastInDim S1x1024 ![0, 1] bcast_S1x1_S1x1024_0_1 (shapeCast S1x1 s0 shapeCasts_S_S1x1))
        (shapeCast S1x1024 v shapeCasts_S1024_S1x1024) (ix2 (0 : Fin 1) o) = s0 ix0 * v (ix1 o) := by
  rw [mulf_apply (φ := .f32), v21_at]
  refine congrArg (fun z => z * v (ix1 o)) ?_
  refine (broadcastInDim_apply _ bcast_S1x1_S1x1024_0_1 (shapeCast S1x1 s0 shapeCasts_S_S1x1) (ix2 (0 : Fin 1) o)
    (ix2 (0 : Fin 1) (0 : Fin 1)) fun a => ?_).trans (v4_at s0)
  match a with
  | ⟨0, _⟩ => rfl
  | ⟨1, _⟩ => rfl

/-- The transposed, narrowed matrix at (k, o) is the matrix at (o, k): narrowing changes nothing at the ideal values. -/
theorem v17_at (M : S1024x1024.Idx → Elt Ideal .f32) (k o : Fin 1024) :
    truncf (F := Ideal) (φ := .f32) .bf16 (transpose S1024x1024 [1, 0] M transposes_S1024x1024_S1024x1024_1_0) bitsLt_bf16_f32 (ix2 k o) = M (ix2 o k) :=
  (truncf_apply (φ := .f32) (ψ := .bf16) _ bitsLt_bf16_f32 _).trans (transpose_ix2_apply M transposes_S1024x1024_S1024x1024_1_0 k o)

end Cert.KernelIdeal.Hand

end
-- ==== Proof.LibMaxOfParts.lean ====
/-
  THE MAXIMUM OF A MATRIX IS THE MAXIMUM OF ITS PARTS' MAXIMA, at the ideal values (floats are extended reals).

  A maximum is carried here by its universal property: `IsMaxOf v f` says that the upper bounds of `v` are exactly the
  common upper bounds of the family `f` (so `v` is the family's least upper bound in `[-∞, +∞]`, `⊥ = -∞` for an empty
  one). Two values with that property of families that have the same upper bounds are equal (`IsMaxOf.eq_of_forall`),
  and the property passes through everything a blocked reduction is made of:

  • a fold of `max` from `-∞` over a finite set has it of the set's elements (`isMaxOf_fold`), hence so do a one-operand
    `stablehlo.reduce` with a maximum body from the constant `0xFF800000` and a `vector.multi_reduction <maximumf>` from
    that accumulator, each at a result index `j`, of the source elements that reduce to `j` (`isMaxOf_hostReduce`,
    `isMaxOf_multiReduction`; into a result of rank zero: of every source element, `isMaxOf_hostReduce_all`);
  • `max v w` has it of the two families together (`IsMaxOf.max`), and a value carried through `m + 1` steps — the first
    block's maximum, then at each later step the maximum of the carried value and that step's block's — has it of the
    blocks' maxima (`isMaxOf_chain`);
  • a maximum of maxima has it of all the members' elements (`IsMaxOf.sigma`).

  THE THEOREM (`hostReduce_eq_hostReduce_parts`): for `x : [a·n, b]` and `P : [a, 1, 1]` whose entry `i` is the maximum
  over the rows `[i·n, (i+1)·n)` of `x`, the `stablehlo.reduce` of `x` over both axes and that of `P` over its three axes,
  with maximum bodies from `-∞` into a rank-zero result, are one array. `hostReduce_eq_hostReduce_blocks` is the same with
  every part given as the maximum of `m` block maxima, block `q` of part `i` being the rows `[(i·m + q)·k, (i·m + q + 1)·k)`
  (a = 2, m = 8, k = 2048, b = 1024: two cores, each folding eight 2048 × 1024 blocks of a [32768, 1024] array).
-/
import Idealize.ShloMosaic.PureOps.Ideal.Laws
import Idealize.ShloMosaic.Lib.ValueIdx

noncomputable section

namespace Cert.Lib.MaxOfParts

open Idealize.ShloMosaic Idealize.ShloMosaic.ValueIdx

/-! ## The universal property -/

/-- `v` is the maximum of the family `f` in the extended reals: an extended real bounds `v` iff it bounds every member. -/
def IsMaxOf {ι : Type} (v : EReal) (f : ι → EReal) : Prop := ∀ u : EReal, v ≤ u ↔ ∀ i, f i ≤ u

variable {ι κ : Type} {v w : EReal} {f : ι → EReal} {g : κ → EReal}

/-- Every member is below the maximum. -/
theorem IsMaxOf.le (hv : IsMaxOf v f) (i : ι) : f i ≤ v := (hv v).1 le_rfl i

/-- The property only sees the family's upper bounds. -/
theorem IsMaxOf.congr (hv : IsMaxOf v f) (h : ∀ u : EReal, (∀ i, f i ≤ u) ↔ ∀ k, g k ≤ u) : IsMaxOf v g :=
  fun u => (hv u).trans (h u)

/-- Maxima of families with the same upper bounds are equal. -/
theorem IsMaxOf.eq_of_forall (hv : IsMaxOf v f) (hw : IsMaxOf w g) (h : ∀ u : EReal, (∀ i, f i ≤ u) ↔ ∀ k, g k ≤ u) :
    v = w :=
  le_antisymm ((hv w).2 ((h w).2 ((hw w).1 le_rfl))) ((hw v).2 ((h v).1 ((hv v).1 le_rfl)))

/-- The maximum of two maxima is the maximum of the two families together. -/
theorem IsMaxOf.max (hv : IsMaxOf v f) (hw : IsMaxOf w g) : IsMaxOf (max v w) (Sum.elim f g) := fun u => by
  rw [max_le_iff, hv u, hw u]
  exact ⟨fun h s => by cases s with | inl i => exact h.1 i | inr k => exact h.2 k,
    fun h => ⟨fun i => h (.inl i), fun k => h (.inr k)⟩⟩

/-- A maximum of maxima is the maximum of all the members' elements. -/
theorem IsMaxOf.sigma {ι' : κ → Type} {B : κ → EReal} {F : (q : κ) → ι' q → EReal} (hv : IsMaxOf v B)
    (hB : ∀ q, IsMaxOf (B q) (F q)) : IsMaxOf v (fun p : (q : κ) × ι' q => F p.1 p.2) := fun u => by
  rw [hv u]
  exact ⟨fun h p => (hB p.1 u).1 (h p.1) p.2, fun h q => (hB q u).2 fun i => h ⟨q, i⟩⟩

/-- A fold of `max` from `-∞` over a finite set is the maximum of the set's elements. -/
theorem isMaxOf_fold (S : Finset ι) (f : ι → EReal) : IsMaxOf (S.fold max ⊥ f) (fun i : S => f i) := fun u => by
  rw [Finset.fold_max_le]
  exact ⟨fun h i => h.2 i.1 i.2, fun h => ⟨bot_le, fun i hi => h ⟨i, hi⟩⟩⟩

/-- A value carried through `m + 1` steps — the first block's maximum, then at each later step the maximum of the
    carried value and the step's block's — ends at the maximum of the blocks' maxima. -/
theorem isMaxOf_chain {m : Nat} (B acc : Fin (m + 1) → EReal) (h0 : acc 0 = B 0)
    (hs : ∀ q : Fin m, acc q.succ = max (acc q.castSucc) (B q.succ)) : IsMaxOf (acc (Fin.last m)) B := by
  have key : ∀ (q : Fin (m + 1)) (u : EReal), acc q ≤ u ↔ ∀ q' : Fin (m + 1), q'.val ≤ q.val → B q' ≤ u := by
    intro q
    induction q using Fin.induction with
    | zero =>
      intro u
      rw [h0]
      refine ⟨fun h q' hq' => ?_, fun h => h 0 (Nat.le_refl _)⟩
      have : q' = 0 := Fin.ext (by simpa using hq')
      rw [this]; exact h
    | succ q ih =>
      intro u
      rw [hs q, max_le_iff, ih u]
      refine ⟨fun h q' hq' => ?_, fun h => ⟨fun q' hq' => h q' ?_, h q.succ (Nat.le_refl _)⟩⟩
      · by_cases hq : q'.val ≤ q.castSucc.val
        · exact h.1 q' hq
        · have : q' = q.succ := Fin.ext (by
            have h1 : q.castSucc.val = q.val := Fin.coe_castSucc q
            have h2 : q.succ.val = q.val + 1 := Fin.val_succ q
            omega)
          rw [this]; exact h.2
      · have h1 : q.castSucc.val = q.val := Fin.coe_castSucc q
        have h2 : q.succ.val = q.val + 1 := Fin.val_succ q
        omega
  exact fun u => (key (Fin.last m) u).trans
    ⟨fun h q' => h q' (Nat.lt_succ_iff.mp q'.isLt), fun h q' _ => h q'⟩

/-! ## The reductions with a maximum body from `-∞` -/

/-- The f32 pattern `0xFF800000` is `-∞`, the bottom of the extended reals. -/
theorem ofBits_neg_inf : Ideal.ofBits .f32 0xFF800000#32 = (⊥ : EReal) := by simp [Ideal.ofBits, Ideal.ieee]

/-- A one-operand `stablehlo.reduce` with a maximum body from `-∞` is, at `j`, the maximum of the operand's elements that
    reduce to `j`. -/
theorem isMaxOf_hostReduce {s t u : Shape} {axes : List (Fin s.rank)} (x : FVec Ideal s .f32) (h : s.ReducesTo axes t)
    (hu : 0 < u.numel) (j : t.Idx) :
    IsMaxOf (Host.reduce (FloatOps.maximumf (F := Ideal) (φ := .f32)) x (constant (F := Ideal) u .f32 0xFF800000#32) h hu j)
      (fun i : {i : s.Idx // h.drop i = j} => x i.1) := by
  rw [Host.reduce_eq_fold]
  have hinit : constant (F := Ideal) u .f32 0xFF800000#32 (Shape.Idx.first hu) = (⊥ : EReal) := ofBits_neg_inf
  rw [hinit]
  refine IsMaxOf.congr (isMaxOf_fold (Finset.univ.filter fun i => h.drop i = j) x) fun u => ?_
  exact ⟨fun hb i => hb ⟨i.1, Finset.mem_filter.2 ⟨Finset.mem_univ _, i.2⟩⟩,
    fun hb i => hb ⟨i.1, (Finset.mem_filter.1 i.2).2⟩⟩

/-- Into a result of rank zero it is the maximum of all the operand's elements. -/
theorem isMaxOf_hostReduce_all {s t u : Shape} {axes : List (Fin s.rank)} (ht : t.rank = 0) (x : FVec Ideal s .f32)
    (h : s.ReducesTo axes t) (hu : 0 < u.numel) (j : t.Idx) :
    IsMaxOf (Host.reduce (FloatOps.maximumf (F := Ideal) (φ := .f32)) x (constant (F := Ideal) u .f32 0xFF800000#32) h hu j) x :=
  (isMaxOf_hostReduce x h hu j).congr fun u =>
    ⟨fun hb i => hb ⟨i, funext fun a => (Fin.cast ht a).elim0⟩, fun hb i => hb i.1⟩

/-- A `vector.multi_reduction <maximumf>` from the accumulator `-∞` is, at `j`, the maximum of the source's elements that
    reduce to `j`. -/
theorem isMaxOf_multiReduction {s t : Shape} {axes : List (Fin s.rank)} (src : FVec Ideal s .f32) (h : s.Reduces axes t)
    (hφ : FKind.Formats .f32) (hacc : (0xFF800000#32 : BitVec FTy.f32.bits) = FKind.maximumf.neutral .f32 hφ) (j : t.Idx) :
    IsMaxOf (multiReduction .maximumf axes t src 0xFF800000#32 h hφ hacc j)
      (fun i : {i : s.Idx // h.drop i = j} => src i.1) := by
  rw [multiReduction_maximumf_eq_fold]
  have hinit : FloatOps.ofBits (F := Ideal) .f32 0xFF800000#32 = (⊥ : EReal) := ofBits_neg_inf
  rw [hinit]
  refine IsMaxOf.congr (isMaxOf_fold (Finset.univ.filter fun i => h.drop i = j) src) fun u => ?_
  exact ⟨fun hb i => hb ⟨i.1, Finset.mem_filter.2 ⟨Finset.mem_univ _, i.2⟩⟩,
    fun hb i => hb ⟨i.1, (Finset.mem_filter.1 i.2).2⟩⟩

/-! ## The matrix's maximum is the maximum of its parts' maxima -/

/-- Row `r` of part `i`, of `a` parts of `n` rows each: row `i·n + r` of the whole. -/
def partRow {N a n : Nat} (hN : a * n = N) (i : Fin a) (r : Fin n) : Fin N :=
  ⟨i.val * n + r.val, by
    have h1 : (i.val + 1) * n ≤ a * n := Nat.mul_le_mul_right n i.isLt
    have h2 := r.isLt
    rw [Nat.add_mul, Nat.one_mul] at h1
    omega⟩

theorem partRow_val {N a n : Nat} (hN : a * n = N) (i : Fin a) (r : Fin n) : (partRow hN i r).val = i.val * n + r.val := rfl

/-- Row `r'` of block `q` (of `m` blocks of `k` rows) of part `i` is row `(i·m + q)·k + r'` of the whole. -/
theorem partRow_partRow_val {N a m k : Nat} (hN : a * (m * k) = N) (i : Fin a) (q : Fin m) (r' : Fin k) :
    (partRow hN i (partRow rfl q r')).val = (i.val * m + q.val) * k + r'.val := by
  rw [partRow_val, partRow_val, Nat.add_mul, Nat.mul_assoc, Nat.add_assoc]

/-- Every row is a row of one part. -/
theorem exists_partRow {N a n : Nat} (hN : a * n = N) (R : Fin N) : ∃ (i : Fin a) (r : Fin n), R = partRow hN i r := by
  have hn : 0 < n := by
    rcases Nat.eq_zero_or_pos n with h0 | hpos
    · subst h0
      have := R.isLt
      rw [Nat.mul_zero] at hN
      omega
    · exact hpos
  refine ⟨⟨R.val / n, (Nat.div_lt_iff_lt_mul hn).2 (hN ▸ R.isLt)⟩, ⟨R.val % n, Nat.mod_lt _ hn⟩, Fin.ext ?_⟩
  exact (Nat.div_add_mod' R.val n).symm

/-- THE THEOREM. `x : [a·n, b]`; entry `i` of `P : [a, 1, 1]` is the maximum over rows `[i·n, (i+1)·n)` of `x`. Then the
    `stablehlo.reduce` of `x` over both axes and that of `P` over its three, maximum bodies from `-∞`, rank-zero results,
    are one array. -/
theorem hostReduce_eq_hostReduce_parts {N a n b : Nat} (hN : a * n = N) {t u u' : Shape} (ht : t.rank = 0)
    (x : FVec Ideal ⟨2, ![N, b]⟩ .f32) (P : FVec Ideal ⟨3, ![a, 1, 1]⟩ .f32)
    (h : (⟨2, ![N, b]⟩ : Shape).ReducesTo [0, 1] t) (h' : (⟨3, ![a, 1, 1]⟩ : Shape).ReducesTo [0, 1, 2] t)
    (hu : 0 < u.numel) (hu' : 0 < u'.numel)
    (hP : ∀ i : Fin a, IsMaxOf (P (ix3 i 0 0)) (fun rc : Fin n × Fin b => x (ix2 (partRow hN i rc.1) rc.2))) :
    Host.reduce (FloatOps.maximumf (F := Ideal) (φ := .f32)) x (constant (F := Ideal) u .f32 0xFF800000#32) h hu
      = Host.reduce (FloatOps.maximumf (F := Ideal) (φ := .f32)) P (constant (F := Ideal) u' .f32 0xFF800000#32) h' hu' := by
  funext j
  refine (isMaxOf_hostReduce_all ht x h hu j).eq_of_forall (isMaxOf_hostReduce_all ht P h' hu' j) fun v => ⟨?_, ?_⟩
  · intro hx p
    obtain ⟨i, c1, c2, rfl⟩ : ∃ (i : Fin a) (c1 c2 : Fin 1), p = ix3 i c1 c2 := ⟨p 0, p 1, p 2, eq_ix3 p⟩
    obtain rfl : c1 = 0 := Subsingleton.elim _ _
    obtain rfl : c2 = 0 := Subsingleton.elim _ _
    exact (hP i v).2 fun rc => hx _
  · intro hp idx
    obtain ⟨R, c, rfl⟩ : ∃ (R : Fin N) (c : Fin b), idx = ix2 R c := ⟨idx 0, idx 1, eq_ix2 idx⟩
    obtain ⟨i, r, rfl⟩ := exists_partRow hN R
    exact ((hP i).le (r, c)).trans (hp (ix3 i 0 0))

/-- The same with every part the maximum of `m` block maxima `B i q`, block `q` of part `i` being the `k` rows from row
    `(i·m + q)·k` (`partRow_partRow_val`). With `a = 2`, `m = 8`, `k = 2048`, `b = 1024`: a [32768, 1024] array, two parts,
    each the fold of `max` over eight 2048 × 1024 blocks (`isMaxOf_chain` gives `hP` for a value carried through the
    blocks, `isMaxOf_multiReduction` or `isMaxOf_hostReduce` gives `hB` for a block's own reduction). -/
theorem hostReduce_eq_hostReduce_blocks {N a m k b : Nat} (hN : a * (m * k) = N) {t u u' : Shape} (ht : t.rank = 0)
    (x : FVec Ideal ⟨2, ![N, b]⟩ .f32) (P : FVec Ideal ⟨3, ![a, 1, 1]⟩ .f32)
    (h : (⟨2, ![N, b]⟩ : Shape).ReducesTo [0, 1] t) (h' : (⟨3, ![a, 1, 1]⟩ : Shape).ReducesTo [0, 1, 2] t)
    (hu : 0 < u.numel) (hu' : 0 < u'.numel) (B : Fin a → Fin m → EReal)
    (hB : ∀ (i : Fin a) (q : Fin m), IsMaxOf (B i q)
      (fun rc : Fin k × Fin b => x (ix2 (partRow hN i (partRow rfl q rc.1)) rc.2)))
    (hP : ∀ i : Fin a, IsMaxOf (P (ix3 i 0 0)) (B i)) :
    Host.reduce (FloatOps.maximumf (F := Ideal) (φ := .f32)) x (constant (F := Ideal) u .f32 0xFF800000#32) h hu
      = Host.reduce (FloatOps.maximumf (F := Ideal) (φ := .f32)) P (constant (F := Ideal) u' .f32 0xFF800000#32) h' hu' := by
  refine hostReduce_eq_hostReduce_parts hN ht x P h h' hu hu' fun i => ?_
  refine ((hP i).sigma (hB i)).congr fun v => ⟨fun hs rc => ?_, fun hr p => hr (partRow rfl p.1 p.2.1, p.2.2)⟩
  obtain ⟨q, r', hq⟩ := exists_partRow (rfl : m * k = m * k) rc.1
  have := hs ⟨q, (r', rc.2)⟩
  rw [hq]
  exact this

end Cert.Lib.MaxOfParts

end
-- ==== Proof.Pay0Ideal.lean ====
import proofs.«101461_j30777735643613_2_alg».proof.Proof.Gen.KernelIdeal.Skeleton
import proofs.«101461_j30777735643613_2_alg».proof.Proof.LibMaxOfParts
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

/-- A shape whose every axis has one coordinate has one index. -/
theorem pay0_idx_eq_of_unit {t : Shape} (ht : ∀ b, t.size b = 1) (j j' : t.Idx) : j = j' :=
  funext fun b => Fin.ext (by have := (j b).isLt; have := (j' b).isLt; have := ht b; omega)

/-- A fold of `max` from `-∞` over a finite set is the set's supremum. -/
theorem pay0_fold_max_bot_eq_sup {ι : Type} (s : Finset ι) (g : ι → EReal) : s.fold max ⊥ g = s.sup g := by
  induction s using Finset.cons_induction with
  | empty => simp
  | cons a s ha ih => rw [Finset.fold_cons, Finset.sup_cons, ih]

/-- The supremum of a family over a finite index type does not change under a re-indexing by a bijection. -/
theorem pay0_sup_univ_comp_equiv {ι κ : Type} [Fintype ι] [Fintype κ] (e : ι ≃ κ) (g : κ → EReal) :
    (Finset.univ.sup fun i => g (e i)) = Finset.univ.sup g := by
  rw [Finset.sup_univ_eq_iSup, Finset.sup_univ_eq_iSup]
  exact e.iSup_comp (g := g)

/-- THE BLOCK MAXIMUM, as a supremum. At the extended reals the first payload, at its one index, is the supremum over
    all entries of the block of their absolute values `max x (-x)`: the reduction over both axes folds `max` from
    `-∞` over every entry, in any order, and the shape casts around it only re-index. -/
theorem k0_pay1_eq_sup (x0 : Vec Ideal S2048x1024 .f32) (i : S1x1x1.Idx) :
    k0_pay1 (F := Ideal) x0 i = Finset.univ.sup fun j : S2048x1024.Idx => max (x0 j) (-(x0 j)) := by
  unfold k0_pay1
  rw [broadcast_apply]
  unfold extractAt
  unfold shapeCast
  simp only [multiReduction]
  rw [reduceFold_eq_fold]
  rw [Finset.filter_true_of_mem fun i _ => pay0_idx_eq_of_unit (by decide) _ _]
  rw [Ideal.ofBits_def, Cert.Lib.MaxOfParts.ofBits_neg_inf]
  refine (pay0_fold_max_bot_eq_sup _ _).trans ?_
  exact pay0_sup_univ_comp_equiv (Shape.reshapeEquiv shapeCasts_S2048x1024_S1x2048x1024) fun k => max (x0 k) (-(x0 k))

/-- THE BLOCK MAXIMUM, by its universal property: the first payload at its one index is the maximum, in the extended
    reals, of the absolute values of the block's entries, row by row and column by column. -/
theorem k0_pay1_isMax (x0 : Vec Ideal S2048x1024 .f32) :
    Cert.Lib.MaxOfParts.IsMaxOf (k0_pay1 (F := Ideal) x0 (ValueIdx.ix3 (0 : Fin 1) (0 : Fin 1) (0 : Fin 1)))
      (fun rc : Fin 2048 × Fin 1024 => Host.absf (F := Ideal) (φ := .f32) x0 (ValueIdx.ix2 rc.1 rc.2)) := fun u => by
  rw [k0_pay1_eq_sup, Finset.sup_le_iff]
  constructor
  · intro h rc
    exact h (ix2 rc.1 rc.2) (Finset.mem_univ _)
  · intro h j _
    have := h (j 0, j 1)
    rw [eq_ix2 j]
    exact this

/-- THE RUNNING MAXIMUM. The second payload, at its one index, is the larger of the carried value and the block's
    maximum. -/
theorem k0_pay2_apply (x0 : Vec Ideal S2048x1024 .f32) (x13 : Vec Ideal S1x1x1 .f32) :
    k0_pay2 (F := Ideal) x0 x13 (ValueIdx.ix3 (0 : Fin 1) (0 : Fin 1) (0 : Fin 1))
      = max (x13 (ValueIdx.ix3 (0 : Fin 1) (0 : Fin 1) (0 : Fin 1))) (k0_pay1 (F := Ideal) x0 (ValueIdx.ix3 (0 : Fin 1) (0 : Fin 1) (0 : Fin 1))) := by
  unfold k0_pay2
  rw [maximumf_apply]
  unfold shapeCast
  rw [pay0_idx_eq_of_unit (by decide) (Shape.reshapeEquiv shapeCasts_S1x1x1_S1x1x1 (ValueIdx.ix3 (0 : Fin 1) (0 : Fin 1) (0 : Fin 1))) (ValueIdx.ix3 (0 : Fin 1) (0 : Fin 1) (0 : Fin 1))]

end Cert.KernelIdeal.Hand

end
-- ==== Proof.Amax.lean ====
/-
  THE GLOBAL MAXIMUM, REGROUPED. The first region leaves in its [2, 1, 1] result, at (i, 0, 0), the value core `i`
  carried through its eight row blocks: the first block's maximum of |x|, then at each later block the larger of the
  carried value and that block's maximum. Row block `8·i + q` is rows [(8·i + q)·2048, +2048) of `x`, so each entry is the
  maximum of |x| over the 16384 rows [i·16384, (i+1)·16384), and the maximum over the two entries is the maximum of |x|
  over the whole array: the `stablehlo.reduce` of |x| over both axes and that of the region's result over its three,
  maximum bodies from `-∞`, are one rank-zero array (`amax`).
-/
import proofs.«101461_j30777735643613_2_alg».proof.Proof.Body0
import proofs.«101461_j30777735643613_2_alg».proof.Proof.Value0
import proofs.«101461_j30777735643613_2_alg».proof.Proof.Pay0Ideal
import proofs.«101461_j30777735643613_2_alg».proof.Proof.LibMaxOfParts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Lib.MaxOfParts

variable (V : (c : Dev nD) → (b : Ref sig .tc) → Buf (Elt Ideal) ((c : Thread nD τ).loc b))

/-! ## The input block of a point -/

/-- The printed index map of the input window over the grid: point `t` sits at block (t, 0). -/
theorem idx_facts0_in : ∀ t : Fin cfg0.N, win0_0.index t (0 : Fin 2) = t.val ∧ win0_0.index t (1 : Fin 2) = 0 :=
  (by decide +kernel : ∀ t : Fin grid0.N, _)

/-- Row `r` of point `t`'s block is a row of the array. -/
theorem blockRow_lt (t : Fin cfg0.N) (r : Fin 2048) : t.val * 2048 + r.val < 32768 := by
  have ht : t.val < 16 := lt_of_lt_of_eq t.isLt (show cfg0.N = 16 from N_0)
  have hr := r.isLt
  omega

/-- The input array, at its literal shape. -/
def X0 (c : Dev nD) : FVec Ideal S32768x1024 .f32 := V c main_arg0

/-- Point `t`'s input block at (r, col) is the array at row `t·2048 + r`, column `col`. -/
theorem iblk0_0_apply (c : Dev nD) (t : Fin cfg0.N) (r : Fin 2048) (col : Fin 1024) :
    (iblk0 V c 0 t : S2048x1024.Idx → Elt Ideal .f32) (ix2 r col)
      = X0 V c (ix2 (⟨t.val * 2048 + r.val, blockRow_lt t r⟩ : Fin 32768) col) := by
  obtain ⟨e0, e1⟩ := idx_facts0_in t
  show V c main_arg0 (((cfg0.win 0).blk t).view.emb (ix2 r col)) = V c main_arg0 _
  refine congrArg _ ?_
  funext a; apply Fin.ext
  match a with
  | ⟨0, _⟩ => show win0_0.index t (0 : Fin 2) * 2048 + 1 * r.val = t.val * 2048 + r.val; omega
  | ⟨1, _⟩ => show win0_0.index t (1 : Fin 2) * 1024 + 1 * col.val = col.val; omega

/-! ## The running maximum is the maximum of the blocks' maxima -/

/-- The one-element rectangle starts at the origin. -/
theorem zero3_out : (![0, 0, 0] : Fin S1x1x1.rank → Nat) = fun _ => 0 := funext fun a => by fin_cases a <;> rfl

/-- Position `q` of core `i`'s eight is a point of the grid. -/
theorem pos_lt (i : Fin 2) (q : Fin 8) : 8 * i.val + q.val < cfg0.N := by
  have hi := i.isLt
  have hq := q.isLt
  rw [show cfg0.N = 16 from N_0]; omega

/-- The maximum of |x| over row block `q` of core `i`, as the body computes it. -/
def B0 (c : Dev nD) (i : Fin 2) (q : Fin 8) : EReal :=
  k0_pay1 (F := Ideal) (iblk0 V c 0 ⟨8 * i.val + q.val, pos_lt i q⟩) (ix3 (0 : Fin 1) (0 : Fin 1) (0 : Fin 1))

/-- The value core `i` carries after position `q`. -/
def A0 (c : Dev nD) (i : Fin 2) (q : Fin 8) : EReal :=
  acc0 V c (8 * i.val + q.val) (pos_lt i q) (ix3 (0 : Fin 1) (0 : Fin 1) (0 : Fin 1))

/-- The carried value after a core's last position is the maximum of its eight blocks' maxima. -/
theorem A0_isMax (c : Dev nD) (i : Fin 2) : IsMaxOf (A0 V c i (Fin.last 7)) (B0 V c i) := by
  refine isMaxOf_chain (m := 7) (B0 V c i) (A0 V c i) ?_ ?_
  · show acc0 V c (8 * i.val + 0) _ _ = _
    have e := acc0_A V c ⟨8 * i.val + 0, pos_lt i 0⟩ (by show (8 * i.val + 0) % 8 = 0; omega)
    rw [View.canon_unit_zero zero3_out] at e
    exact congrFun e _
  · intro q
    have hq := q.isLt
    have e := acc0_B V c ⟨8 * i.val + q.succ.val, pos_lt i q.succ⟩
      (by show ¬(8 * i.val + q.succ.val) % 8 = 0; rw [Fin.val_succ]; omega)
    rw [View.canon_unit_zero zero3_out] at e
    show acc0 V c (8 * i.val + q.succ.val) _ _ = max (acc0 V c (8 * i.val + q.castSucc.val) _ _) _
    rw [congrFun e _, k0_pay2_apply]
    refine congrArg (fun z => max z _) ?_
    exact congrFun (acc0_congr V c _ _ _ _ (by
      show 8 * i.val + q.succ.val - 1 = 8 * i.val + q.castSucc.val
      rw [Fin.val_succ, Fin.coe_castSucc]; omega)) _

/-- A block's maximum, as the body computes it, is the maximum of |x| over the block's rows of the array. -/
theorem B0_isMax (c : Dev nD) (i : Fin 2) (q : Fin 8) :
    IsMaxOf (B0 V c i q) (fun rc : Fin 2048 × Fin 1024 =>
      Host.absf (F := Ideal) (φ := .f32) (X0 V c)
        (ix2 (partRow (N := 32768) (a := 2) (n := 8 * 2048) rfl i (partRow rfl q rc.1)) rc.2)) := by
  unfold B0
  refine (k0_pay1_isMax (iblk0 V c 0 ⟨8 * i.val + q.val, pos_lt i q⟩)).congr fun u => forall_congr' fun rc => ?_
  have e : Host.absf (F := Ideal) (φ := .f32) (iblk0 V c 0 ⟨8 * i.val + q.val, pos_lt i q⟩ : Vec Ideal S2048x1024 .f32) (ix2 rc.1 rc.2)
      = Host.absf (F := Ideal) (φ := .f32) (X0 V c)
        (ix2 (partRow (N := 32768) (a := 2) (n := 8 * 2048) rfl i (partRow rfl q rc.1)) rc.2) :=
    congrArg (FloatOps.hostAbsf (F := Ideal) (φ := .f32)) ((iblk0_0_apply V c ⟨8 * i.val + q.val, pos_lt i q⟩ rc.1 rc.2).trans
      (congrArg (fun R : Fin 32768 => X0 V c (ix2 R rc.2)) (Fin.ext (by
        show (8 * i.val + q.val) * 2048 + rc.1.val = _
        rw [partRow_partRow_val]; omega))))
  rw [e]

/-- THE REGROUPING: the maximum of |x| over the whole array is the maximum over the first region's two results. -/
theorem amax (c : Dev nD) (h : (⟨2, ![32768, 1024]⟩ : Shape).ReducesTo [0, 1] S_) :
    Host.reduce (FloatOps.maximumf (F := Ideal)) (Host.absf (F := Ideal) (φ := .f32) (V c main_arg0)) (constant (F := Ideal) S_ .f32 0xFF800000#32) h h_S_
      = Host.reduce (FloatOps.maximumf (F := Ideal)) (P0 V c) (constant (F := Ideal) S_ .f32 0xFF800000#32) reducesTo_S2x1x1_S_d0_1_2 h_S_ :=
  hostReduce_eq_hostReduce_blocks (a := 2) (m := 8) (k := 2048) (b := 1024) (N := 32768) rfl rfl
    (Host.absf (F := Ideal) (φ := .f32) (X0 V c)) (P0 V c) h reducesTo_S2x1x1_S_d0_1_2 h_S_ h_S_
    (B0 V c) (B0_isMax V c) (A0_isMax V c)

end Cert.KernelIdeal.Hand

end
-- ==== Proof.Final.lean ====
import proofs.«101461_j30777735643613_2_alg».proof.Proof.Run
import proofs.«101461_j30777735643613_2_alg».proof.Proof.Value0
import proofs.«101461_j30777735643613_2_alg».proof.Proof.Value1
import proofs.«101461_j30777735643613_2_alg».proof.Proof.HostVals
import proofs.«101461_j30777735643613_2_alg».proof.Proof.RefValue
import proofs.«101461_j30777735643613_2_alg».proof.Proof.KernelAt
import proofs.«101461_j30777735643613_2_alg».proof.Proof.Amax

noncomputable section

namespace Cert.KernelIdeal.Hand

open Cert.KernelIdeal Cert.KernelIdeal.Gen
open Idealize.ShloMosaic Idealize.ShloMosaic.TcCoe Idealize.ShloMosaic.ValueIdx
open Cert.ReferenceIdeal.RefValue (G G_apply XQ XQ_apply SIN WS WQ)

/-! # The kernel's result is the reference's function

The second region leaves in the result array the closed form of Proof/Value1.lean, of the arrays it finds: `x` itself,
and what the host code made of the weight, the bias and the first region's two per-core maxima. Entry (T, o) of
it is, read at the ideal instance,

  (∑ₖ round(clip(x(T,k) / s)) · w_q(o,k)) · (s · w_s(o)) + b(o),   s = max((max of the two maxima) / 448, floor),

and the reference's entry is the same expression with s made from the maximum of |x| over the whole array. The two
scales are one number: the maximum over all rows is the maximum of the two halves' maxima. The weight's scale `w_s`
and quantized form `w_q` are the same host operations on both sides and are never opened. -/

variable (m : (ℓ : Loc nD τ sig) → Buf (Elt Ideal) ℓ) (c : Dev nD)

/-- What the second region finds in its five operand arrays. -/
theorem found_x : (V5 m c main_arg0 : S32768x1024.Idx → Elt Ideal .f32) = m ((c : Thread nD τ).loc main_arg0) :=
  (host_arg0 (W1 m c)).trans ((W1_arr m c 0).trans (((dat0 (V0 m) c).arrAt_in 0 rfl _).trans (A_eq0 (V0 m) c 0)))
theorem kept_w : W1 m c (Proc.devRef .tc main_arg1) = m ((c : Thread nD τ).loc main_arg1) := W1_of_ne m c main_arg1 (by decide)
theorem kept_b : W1 m c (Proc.devRef .tc main_arg2) = m ((c : Thread nD τ).loc main_arg2) := W1_of_ne m c main_arg2 (by decide)
/-- The first region's result array holds its two running maxima. -/
theorem found_parts : (W1 m c (Proc.devRef .tc main_v0) : S2x1x1.Idx → Elt Ideal .f32) = P0 (V0 m) c :=
  (W1_arr m c 1).trans (final0 (V0 m) c)
theorem found_wT : (V5 m c main_v17 : S1024x1024.Idx → Elt Ideal .bf16)
    = truncf (F := Ideal) (φ := .f32) .bf16 (transpose S1024x1024 [1, 0] (WQk (F := Ideal) (m ((c : Thread nD τ).loc main_arg1))) transposes_S1024x1024_S1024x1024_1_0) bitsLt_bf16_f32 :=
  (host_v17 (W1 m c)).trans (by rw [kept_w])
theorem found_s : (V5 m c main_v4 : S1x1.Idx → Elt Ideal .f32) = shapeCast S1x1 (SK (P0 (V0 m) c)) shapeCasts_S_S1x1 :=
  (host_v4 (W1 m c)).trans (by rw [found_parts])
theorem found_sp : (V5 m c main_v20 : S1x1024.Idx → Elt Ideal .f32)
    = mulf (broadcastInDim S1x1024 ![0, 1] bcast_S1x1_S1x1024_0_1 (shapeCast S1x1 (SK (P0 (V0 m) c)) shapeCasts_S_S1x1))
        (shapeCast S1x1024 (WSk (m ((c : Thread nD τ).loc main_arg1))) shapeCasts_S1024_S1x1024) :=
  (host_v20 (W1 m c)).trans (by rw [found_parts, kept_w])
theorem found_bb : (V5 m c main_v21 : S1x1024.Idx → Elt Ideal .f32)
    = shapeCast S1x1024 (m ((c : Thread nD τ).loc main_arg2)) shapeCasts_S1024_S1x1024 :=
  (host_v21 (W1 m c)).trans (by rw [kept_b])

/-- The kernel's input scale is the reference's: the maximum of |x| over all rows is the maximum of the two halves'. -/
theorem scale_eq : SK (F := Ideal) (P0 (V0 m) c) = SIN (m ((c : Thread nD τ).loc main_arg0)) := by
  unfold SK SIN
  rw [← amax (V0 m) c Cert.ReferenceIdeal.Gen.reducesTo_S32768x1024_S_d0_1]

/-- The weight's row scale and its quantized form are the same host operations in both programs. -/
theorem WSk_eq (w : FVec Ideal S1024x1024 .f32) : WSk (F := Ideal) w = WS w := rfl
theorem WQk_eq (w : FVec Ideal S1024x1024 .f32) : WQk (F := Ideal) w = WQ w := rfl

/-- At the ideal instance the second region's result array is the reference's function of the three arguments. -/
theorem kernel_value :
    W6 (F := Ideal) m c (Proc.devRef .tc main_v22)
      = G (m ((c : Thread nD τ).loc main_arg0)) (m ((c : Thread nD τ).loc main_arg1)) (m ((c : Thread nD τ).loc main_arg2)) := by
  rw [W6_main_v22, final1, found_x, found_wT, found_s, found_sp, found_bb]
  funext i
  obtain ⟨T, o, rfl⟩ : ∃ (T : Fin 32768) (o : Fin 1024), i = ix2 T o := ⟨i 0, i 1, eq_ix2 i⟩
  rw [G1_apply, G_apply, v4_at, v20_at, v21_at, scale_eq]
  simp only [XQ_apply]
  rw [WSk_eq]
  refine congrArg (· + _) (congrArg (· * _) (Finset.sum_congr rfl fun k _ => ?_))
  have e : truncf (F := Ideal) (φ := .f32) .bf16 (transpose S1024x1024 [1, 0] (WQk (F := Ideal) (m ((c : Thread nD τ).loc main_arg1))) transposes_S1024x1024_S1024x1024_1_0) bitsLt_bf16_f32 (ix2 k o)
      = WQ (m ((c : Thread nD τ).loc main_arg1)) (ix2 o k) := (v17_at _ k o).trans (congrFun (WQk_eq _) _)
  rw [e]

end Cert.KernelIdeal.Hand

end
-- ==== Proof.lean ====
/-
  The certificate of the quantized linear layer: a kernel program of two regions — the first leaves each core's
  maximum of |x| over its half of the rows, the second computes round(clip(x / s)) · w_qᵀ · (s · w_s) + b on 1024-row
  blocks, with the input scale s = max(max|x| / 448, floor) made on the host in between from the two per-core maxima —
  against the plain reference that takes the maximum of |x| over the whole array at once.

  One run of the kernel program, generic in the float instance, carries all of it: every weakly fair execution
  terminates without a fault with each unscoped buffer at the contents followed through @main's six segments
  (Proof/Run.lean over the two regions' body obligations, Proof/Body0.lean and Proof/Body1.lean). Read at the argument
  arrays it is the frame, at the word-level instance and at the ideal one. Read at the result array at the ideal
  instance it is the second region's closed form (Proof/Value1.lean) of what the host code leaves (Proof/HostVals.lean)
  of the first region's two maxima (Proof/Value0.lean), which index by index is the reference's function
  (Proof/RefValue.lean over the reference's generated run) because the maximum over all rows is the maximum of the two
  halves' maxima, each the maximum of its eight blocks' maxima (Proof/Final.lean). The ideal pass rewrote nothing.
-/
import proofs.«101461_j30777735643613_2_alg».proof.Defs
import proofs.«101461_j30777735643613_2_alg».proof.Proof.Gen.Kernel
import proofs.«101461_j30777735643613_2_alg».proof.Proof.Gen.KernelIdeal
import proofs.«101461_j30777735643613_2_alg».proof.Proof.Gen.ReferenceIdeal
import proofs.«101461_j30777735643613_2_alg».proof.Proof.Gen.Pre_finite_inputs
import proofs.«101461_j30777735643613_2_alg».proof.Proof.Gen.ReferenceIdeal.Run
import proofs.«101461_j30777735643613_2_alg».proof.Proof.Gen.ReferenceIdeal.Read
import proofs.«101461_j30777735643613_2_alg».proof.Proof.KRun
import proofs.«101461_j30777735643613_2_alg».proof.Proof.Run
import proofs.«101461_j30777735643613_2_alg».proof.Proof.RefValue
import proofs.«101461_j30777735643613_2_alg».proof.Proof.Final

noncomputable section

namespace Cert.Proof

open Idealize.ShloMosaic Idealize.ShloMosaic.TcCoe Idealize.SL.Sem

/-- The word-level program runs and leaves its three arguments as launched. -/
theorem frame_k [Cert.Kernel.Facts] [Cert.Pre_finite_inputs.Facts] : Cert.frame_Kernel := fun m ρ _ =>
  (θ_run Cert.Kernel.defs _ _).mono (fun _ h c =>
    ⟨(h c _ (Cert.Kernel.Hand.mem_uc Cert.Kernel.main_arg0 (by decide))).trans (Cert.Kernel.Hand.W6_main_arg0 m c),
     (h c _ (Cert.Kernel.Hand.mem_uc Cert.Kernel.main_arg1 (by decide))).trans (Cert.Kernel.Hand.W6_main_arg1 m c),
     (h c _ (Cert.Kernel.Hand.mem_uc Cert.Kernel.main_arg2 (by decide))).trans (Cert.Kernel.Hand.W6_main_arg2 m c)⟩)
    (Cert.Kernel.Hand.run_main (F := Bits) m ρ)

/-- The idealized program runs and leaves its three arguments as launched. -/
theorem frame_ki [Cert.KernelIdeal.Facts] [Cert.Pre_finite_inputs.Facts] : Cert.frame_KernelIdeal := fun m ρ _ =>
  (θ_run Cert.KernelIdeal.defs _ _).mono (fun _ h c =>
    ⟨(h c _ (Cert.KernelIdeal.Hand.mem_uc Cert.KernelIdeal.main_arg0 (by decide))).trans (Cert.KernelIdeal.Hand.W6_main_arg0 m c),
     (h c _ (Cert.KernelIdeal.Hand.mem_uc Cert.KernelIdeal.main_arg1 (by decide))).trans (Cert.KernelIdeal.Hand.W6_main_arg1 m c),
     (h c _ (Cert.KernelIdeal.Hand.mem_uc Cert.KernelIdeal.main_arg2 (by decide))).trans (Cert.KernelIdeal.Hand.W6_main_arg2 m c)⟩)
    (Cert.KernelIdeal.Hand.run_main (F := Ideal) m ρ)

/-- The reference runs and leaves its three arguments as launched: its generated run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with the same result array:
    the kernel's at the reference's function of ITS arguments (`kernel_value`), the reference's at that function of
    its own, and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.RefValue.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c =>
      ⟨(h c _ (Cert.KernelIdeal.Hand.mem_uc Cert.KernelIdeal.main_v22 (by decide))).trans (Cert.KernelIdeal.Hand.kernel_value m c),
       (h c _ (Cert.KernelIdeal.Hand.mem_uc Cert.KernelIdeal.main_arg0 (by decide))).trans (Cert.KernelIdeal.Hand.W6_main_arg0 m c),
       (h c _ (Cert.KernelIdeal.Hand.mem_uc Cert.KernelIdeal.main_arg1 (by decide))).trans (Cert.KernelIdeal.Hand.W6_main_arg1 m c),
       (h c _ (Cert.KernelIdeal.Hand.mem_uc Cert.KernelIdeal.main_arg2 (by decide))).trans (Cert.KernelIdeal.Hand.W6_main_arg2 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.RefValue.run_G m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
